-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x1 : Shape := ⟨2, ![256, 1]⟩
abbrev S1 : Shape := ⟨1, ![1]⟩
abbrev S2000000 : Shape := ⟨1, ![2000000]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256x1 .f32) (main_arg13 : FVec F S1 .f32) (main_v48 : IVec S_ 1) (main_v49 : FVec F S64x256 .f32) (main_v50 : FVec F S64x256 .f32) : IVec S_ 1 :=
  let main_v51 : IVec S64x256 1 := cmpf .olt main_v49 main_v50
  let main_c_19 : IVec S_ 1 := constantI S_ 1 1#1
  let main_v52 : IVec S_ 1 := (fun x v => Host.reduce IntOp.andi x v reducesTo_S64x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x1 .f32 := Host.absf main_arg12
  let main_cst_22 : FVec F S_ .f32 := constant S_ .f32 0x7F800000#32
  let main_v60 : FVec F S256x1 .f32 := broadcastInDim S256x1 ![] bcast_S_S256x1 main_cst_22
  let main_v61 : IVec S256x1 1 := cmpf .olt main_v59 main_v60
  let main_c_23 : IVec S_ 1 := constantI S_ 1 1#1
  let main_v62 : IVec S_ 1 := (fun x v => Host.reduce IntOp.andi x v reducesTo_S256x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S64 .f32) (main_arg8 : FVec F S64 .f32) (main_arg9 : FVec F S64 .f32) (main_arg10 : FVec F S64x256 .f32) (main_arg11 : FVec F S256 .f32) (main_arg12 : FVec F S256x1 .f32) (main_arg13 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x256 .f32 := Host.absf main_arg10
  let main_cst_18 : FVec F S_ .f32 := constant S_ .f32 0x7F800000#32
  let main_v50 : FVec F S64x256 .f32 := broadcastInDim S64x256 ![] bcast_S_S64x256 main_cst_18
  fn_part3 (F := F) main_arg11 main_arg12 main_arg13 main_v48 main_v49 main_v50

def fn_part1 {F : FTy → Type} [FloatOps F] (main_arg4 : FVec F S64x64 .f32) (main_arg5 : FVec F S64 .f32) (main_arg6 : FVec F S64 .f32) (main_arg7 : FVec F S64 .f32) (main_arg8 : FVec F S64 .f32) (main_arg9 : FVec F S64 .f32) (main_arg10 : FVec F S64x256 .f32) (main_arg11 : FVec F S256 .f32) (main_arg12 : FVec F S256x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S2000000x64 .f32) (main_arg1 : FVec F S2000000x64 .f32) (main_arg2 : FVec F S128x64 .f32) (main_arg3 : FVec F S64 .f32) (main_arg4 : FVec F S64x64 .f32) (main_arg5 : FVec F S64 .f32) (main_arg6 : FVec F S64 .f32) (main_arg7 : FVec F S64 .f32) (main_arg8 : FVec F S64 .f32) (main_arg9 : FVec F S64 .f32) (main_arg10 : FVec F S64x256 .f32) (main_arg11 : FVec F S256 .f32) (main_arg12 : FVec F S256x1 .f32) (main_arg13 : FVec F S1 .f32) (main_arg14 : IVec S2000000 32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  let main_v4 : FVec F S2000000x64 .f32 := Host.absf main_arg1
  let main_cst_0 : FVec F S_ .f32 := constant S_ .f32 0x7F800000#32
  let main_v5 : FVec F S2000000x64 .f32 := broadcastInDim S2000000x64 ![] bcast_S_S2000000x64 main_cst_0
  let main_v6 : IVec S2000000x64 1 := cmpf .olt main_v4 main_v5
  let main_c_1 : IVec S_ 1 := constantI S_ 1 1#1
  let main_v7 : IVec S_ 1 := (fun x v => Host.reduce IntOp.andi x v reducesTo_S2000000x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S2000000x64 : Shape := ⟨2, ![2000000, 64]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x1 : Shape := ⟨2, ![256, 1]⟩
abbrev S1 : Shape := ⟨1, ![1]⟩
abbrev S2000000 : Shape := ⟨1, ![2000000]⟩
abbrev S1x64 : Shape := ⟨2, ![1, 64]⟩
abbrev S8000x64 : Shape := ⟨2, ![8000, 64]⟩
abbrev S_ : Shape := ⟨0, ![]⟩
abbrev S4096x64 : Shape := ⟨2, ![4096, 64]⟩
abbrev S2000000x1 : Shape := ⟨2, ![2000000, 1]⟩
abbrev S1x256 : Shape := ⟨2, ![1, 256]⟩
abbrev S1x1 : Shape := ⟨2, ![1, 1]⟩
abbrev S4096x1 : Shape := ⟨2, ![4096, 1]⟩
abbrev S1024x64 : Shape := ⟨2, ![1024, 64]⟩
abbrev S1024x1 : Shape := ⟨2, ![1024, 1]⟩
abbrev S1024x256 : Shape := ⟨2, ![1024, 256]⟩

abbrev nBuf : Space → Nat
  | .hbm => 31
  | .vmem => 23
  | .smem => 0
  | _ => 0

abbrev bufTy : (tb : Table) → Fin (tcTables nBuf tb) → BufTy
  | .hbm, ⟨0, _⟩ => ⟨S2000000x64, .f32⟩
  | .hbm, ⟨1, _⟩ => ⟨S2000000x64, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x256, .f32⟩
  | .hbm, ⟨11, _⟩ => ⟨S256, .f32⟩
  | .hbm, ⟨12, _⟩ => ⟨S256x1, .f32⟩
  | .hbm, ⟨13, _⟩ => ⟨S1, .f32⟩
  | .hbm, ⟨14, _⟩ => ⟨S2000000, .i32⟩
  | .hbm, ⟨15, _⟩ => ⟨S64x64, .f32⟩
  | .hbm, ⟨16, _⟩ => ⟨S64x64, .f32⟩
  | .hbm, ⟨17, _⟩ => ⟨S1x64, .f32⟩
  | .hbm, ⟨18, _⟩ => ⟨S1x64, .f32⟩
  | .hbm, ⟨19, _⟩ => ⟨S2000000x64, .f32⟩
  | .hbm, ⟨20, _⟩ => ⟨S_, .f32⟩
  | .hbm, ⟨21, _⟩ => ⟨S4096x64, .f32⟩
  | .hbm, ⟨22, _⟩ => ⟨S2000000x1, .i32⟩
  | .hbm, ⟨23, _⟩ => ⟨S4096x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x256, .f32⟩
  | .hbm, ⟨29, _⟩ => ⟨S1x1, .f32⟩
  | .hbm, ⟨30, _⟩ => ⟨S4096x1, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S8000x64, .f32⟩
  | .local _ .vmem, ⟨10, _⟩ => ⟨S8000x64, .f32⟩
  | .local _ .vmem, ⟨11, _⟩ => ⟨S1024x64, .f32⟩
  | .local _ .vmem, ⟨12, _⟩ => ⟨S1024x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S64x256, .f32⟩
  | .local _ .vmem, ⟨18, _⟩ => ⟨S1x256, .f32⟩
  | .local _ .vmem, ⟨19, _⟩ => ⟨S256x1, .f32⟩
  | .local _ .vmem, ⟨20, _⟩ => ⟨S1x1, .f32⟩
  | .local _ .vmem, ⟨21, _⟩ => ⟨S1024x1, .f32⟩
  | .local _ .vmem, ⟨22, _⟩ => ⟨S1024x1, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S128x64_S64x64_0_0 : S128x64.Slices ![0, 0] S64x64
  slices_S128x64_S64x64_64_0 : S128x64.Slices ![64, 0] S64x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S4096x64 : S_.BroadcastsInDim S4096x64 (![] : Fin 0 → Fin S4096x64.rank)
  bcast_S2000000_S2000000x1_0 : S2000000.BroadcastsInDim S2000000x1 (![0] : Fin 1 → Fin S2000000x1.rank)
  shapeCasts_S256_S1x256 : S256.ShapeCasts S1x256
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1x64_S1024x64 : S1x64.Broadcasts S1024x64
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S8000x64_S64x64_S8000x64_1_0_0_1_n_n_wf : DotDims.WF S8000x64 S64x64 S8000x64 [1] [0] [0] [1] [] []
  scatter_S4096x64_S2000000x1_S2000000x64_1_0_0_1_wf : ScatterDims.WF S4096x64 S2000000x1 S2000000x64 [1] [0] [0] 1
  dot_S1024x64_S64x256_S1024x256_1_0_0_1_n_n_wf : DotDims.WF S1024x64 S64x256 S1024x256 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S2000000x64.size a
  hwx0_0 : ∀ i : grid0.Coords, EltTy.bits .f32 = 32 ∨ (Rect.block (s := S2000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S2000000x64.size a
  hwx0_1 : ∀ i : grid0.Coords, EltTy.bits .f32 = 32 ∨ (Rect.block (s := S2000000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S2000000x64.size a
  hwx0_7 : ∀ i : grid0.Coords, EltTy.bits .f32 = 32 ∨ (Rect.block (s := S2000000x64) S8000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S4096x64.size a
  hwx1_0 : ∀ i : grid1.Coords, EltTy.bits .f32 = 32 ∨ (Rect.block (s := S4096x64) S1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x256.size a ≤ S64x256.size a
  hwx1_5 : ∀ i : grid1.Coords, EltTy.bits .f32 = 32 ∨ (Rect.block (s := S64x256) S64x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x1.size a ≤ S256x1.size a
  hwx1_7 : ∀ i : grid1.Coords, EltTy.bits .f32 = 32 ∨ (Rect.block (s := S256x1) S256x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x1.size a ≤ S4096x1.size a
  hwx1_9 : ∀ i : grid1.Coords, EltTy.bits .f32 = 32 ∨ (Rect.block (s := S4096x1) S1024x1.size (cc1_transform_9 i) (hinb1_9 i)).WholeWords (EltTy.packing .f32)

variable [Facts₀]

def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S4096x64_S2000000x1_S2000000x64_1_0_0_1 : ScatterDims S4096x64 S2000000x1 S2000000x64 where
  updateWindowDims := [1]
  insertedWindowDims := [0]
  scatterDimsToOperandDims := [0]
  indexVectorDim := 1
  wf := scatter_S4096x64_S2000000x1_S2000000x64_1_0_0_1_wf
def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v7) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S256x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v13) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v14) S1024x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S2000000x64 : Shape := ⟨2, ![2000000, 64]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x1 : Shape := ⟨2, ![256, 1]⟩
abbrev S1 : Shape := ⟨1, ![1]⟩
abbrev S2000000 : Shape := ⟨1, ![2000000]⟩
abbrev S2000000x128 : Shape := ⟨2, ![2000000, 128]⟩
abbrev S1x64 : Shape := ⟨2, ![1, 64]⟩
abbrev S_ : Shape := ⟨0, ![]⟩
abbrev S4096x64 : Shape := ⟨2, ![4096, 64]⟩
abbrev S2000000x1 : Shape := ⟨2, ![2000000, 1]⟩
abbrev S4096x256 : Shape := ⟨2, ![4096, 256]⟩
abbrev S1x256 : Shape := ⟨2, ![1, 256]⟩
abbrev S4096x1 : Shape := ⟨2, ![4096, 1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S2000000x64, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x256, .f32⟩
  | .hbm, ⟨11, _⟩ => ⟨S256, .f32⟩
  | .hbm, ⟨12, _⟩ => ⟨S256x1, .f32⟩
  | .hbm, ⟨13, _⟩ => ⟨S1, .f32⟩
  | .hbm, ⟨14, _⟩ => ⟨S2000000, .i32⟩
  | .hbm, ⟨15, _⟩ => ⟨S2000000x128, .f32⟩
  | .hbm, ⟨16, _⟩ => ⟨S2000000x64, .f32⟩
  | .hbm, ⟨17, _⟩ => ⟨S1x64, .f32⟩
  | .hbm, ⟨18, _⟩ => ⟨S2000000x64, .f32⟩
  | .hbm, ⟨19, _⟩ => ⟨S2000000x64, .f32⟩
  | .hbm, ⟨20, _⟩ => ⟨S2000000x64, .f32⟩
  | .hbm, ⟨21, _⟩ => ⟨S2000000x64, .f32⟩
  | .hbm, ⟨22, _⟩ => ⟨S1x64, .f32⟩
  | .hbm, ⟨23, _⟩ => ⟨S2000000x64, .f32⟩
  | .hbm, ⟨24, _⟩ => ⟨S2000000x64, .f32⟩
  | .hbm, ⟨25, _⟩ => ⟨S_, .f32⟩
  | .hbm, ⟨26, _⟩ => ⟨S2000000x64, .f32⟩
  | .hbm, ⟨27, _⟩ => ⟨S2000000x64, .f32⟩
  | .hbm, ⟨28, _⟩ => ⟨S2000000x64, .f32⟩
  | .hbm, ⟨29, _⟩ => ⟨S2000000x64, .f32⟩
  | .hbm, ⟨30, _⟩ => ⟨S_, .f32⟩
  | .hbm, ⟨31, _⟩ => ⟨S2000000x64, .f32⟩
  | .hbm, ⟨32, _⟩ => ⟨S2000000x64, .f32⟩
  | .hbm, ⟨33, _⟩ => ⟨S_, .f32⟩
  | .hbm, ⟨34, _⟩ => ⟨S2000000x64, .f32⟩
  | .hbm, ⟨35, _⟩ => ⟨S2000000x64, .f32⟩
  | .hbm, ⟨36, _⟩ => ⟨S2000000x64, .f32⟩
  | .hbm, ⟨37, _⟩ => ⟨S_, .f32⟩
  | .hbm, ⟨38, _⟩ => ⟨S4096x64, .f32⟩
  | .hbm, ⟨39, _⟩ => ⟨S2000000x1, .i32⟩
  | .hbm, ⟨40, _⟩ => ⟨S4096x64, .f32⟩
  | .hbm, ⟨41, _⟩ => ⟨S1x64, .f32⟩
  | .hbm, ⟨42, _⟩ => ⟨S4096x64, .f32⟩
  | .hbm, ⟨43, _⟩ => ⟨S4096x64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S1x64, .f32⟩
  | .hbm, ⟨49, _⟩ => ⟨S4096x64, .f32⟩
  | .hbm, ⟨50, _⟩ => ⟨S4096x64, .f32⟩
  | .hbm, ⟨51, _⟩ => ⟨S1x64, .f32⟩
  | .hbm, ⟨52, _⟩ => ⟨S4096x64, .f32⟩
  | .hbm, ⟨53, _⟩ => ⟨S4096x64, .f32⟩
  | .hbm, ⟨54, _⟩ => ⟨S1x64, .f32⟩
  | .hbm, ⟨55, _⟩ => ⟨S4096x64, .f32⟩
  | .hbm, ⟨56, _⟩ => ⟨S4096x64, .f32⟩
  | .hbm, ⟨57, _⟩ => ⟨S4096x256, .f32⟩
  | .hbm, ⟨58, _⟩ => ⟨S1x256, .f32⟩
  | .hbm, ⟨59, _⟩ => ⟨S4096x256, .f32⟩
  | .hbm, ⟨60, _⟩ => ⟨S4096x256, .f32⟩
  | .hbm, ⟨61, _⟩ => ⟨S_, .f32⟩
  | .hbm, ⟨62, _⟩ => ⟨S4096x256, .f32⟩
  | .hbm, ⟨63, _⟩ => ⟨S4096x256, .f32⟩
  | .hbm, ⟨64, _⟩ => ⟨S4096x1, .f32⟩
  | .hbm, ⟨65, _⟩ => ⟨S1x1, .f32⟩
  | .hbm, ⟨66, _⟩ => ⟨S4096x1, .f32⟩
  | .hbm, ⟨67, _⟩ => ⟨S4096x1, .f32⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call0_cst : Ref sig .tc := ⟨.hbm, 25, rfl⟩
abbrev main_call0_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call1_cst : Ref sig .tc := ⟨.hbm, 61, rfl⟩
abbrev main_call1_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]

class Facts₀ : Prop where
  concatenates_S2000000x64_S2000000x64_S2000000x128_d1 : Shape.Concatenates [S2000000x64, S2000000x64] S2000000x128 1
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S_S4096x64 : S_.BroadcastsInDim S4096x64 (![] : Fin 0 → Fin S4096x64.rank)
  bcast_S2000000_S2000000x1_0 : S2000000.BroadcastsInDim S2000000x1 (![0] : Fin 1 → Fin S2000000x1.rank)
  bcast_S1x64_S4096x64_0_1 : S1x64.BroadcastsInDim S4096x64 (![0, 1] : Fin 2 → Fin S4096x64.rank)
  bcast_S_S64 : S_.BroadcastsInDim S64 (![] : Fin 0 → Fin S64.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S2000000x128_S128x64_S2000000x64_1_0_0_1_n_n_wf : DotDims.WF S2000000x128 S128x64 S2000000x64 [1] [0] [0] [1] [] []
  dot_S2000000x64_S64x64_S2000000x64_1_0_0_1_n_n_wf : DotDims.WF S2000000x64 S64x64 S2000000x64 [1] [0] [0] [1] [] []
  scatter_S4096x64_S2000000x1_S2000000x64_1_0_0_1_wf : ScatterDims.WF S4096x64 S2000000x1 S2000000x64 [1] [0] [0] 1
  dot_S4096x64_S64x256_S4096x256_1_0_0_1_n_n_wf : DotDims.WF S4096x64 S64x256 S4096x256 [1] [0] [0] [1] [] []
  dot_S4096x256_S256x1_S4096x1_1_0_0_1_n_n_wf : DotDims.WF S4096x256 S256x1 S4096x1 [1] [0] [0] [1] [] []

variable [Facts₀]

def dot_S2000000x128_S128x64_S2000000x64_1_0_0_1_n_n : DotDims S2000000x128 S128x64 S2000000x64 where
  lhsContracting := [1]
  rhsContracting := [0]
  lhsNonContracting := [0]
  rhsNonContracting := [1]
  lhsBatch := []
  rhsBatch := []
  wf := dot_S2000000x128_S128x64_S2000000x64_1_0_0_1_n_n_wf
def dot_S2000000x64_S64x64_S2000000x64_1_0_0_1_n_n : DotDims S2000000x64 S64x64 S2000000x64 where
  lhsContracting := [1]
  rhsContracting := [0]
  lhsNonContracting := [0]
  rhsNonContracting := [1]
  lhsBatch := []
  rhsBatch := []
  wf := dot_S2000000x64_S64x64_S2000000x64_1_0_0_1_n_n_wf
def scatter_S4096x64_S2000000x1_S2000000x64_1_0_0_1 : ScatterDims S4096x64 S2000000x1 S2000000x64 where
  updateWindowDims := [1]
  insertedWindowDims := [0]
  scatterDimsToOperandDims := [0]
  indexVectorDim := 1
  wf := scatter_S4096x64_S2000000x1_S2000000x64_1_0_0_1_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

class Facts : Prop extends Facts₀ where

variable [Facts]
-- ==== Proof.KRun.lean ====
/-
  The run of the two-region program with its result named.

  The program is four segments: the host operations that cut the first weight matrix in halves and lay the biases as
  rows; the first region; the host operations that pool the gated rows per graph and lay the remaining vectors as
  rows; the second region.  The contents of every buffer at the end of the last segment are the fold `W4` of the
  segments from the launch memory.  This module states the run with the result buffer read at that fold, beside the
  arguments, which end as launched.
-/
import proofs.«155075_j16088947491016_1_alg».proof.Proof.Gen.KernelIdeal.Frame

set_option maxRecDepth 16384

noncomputable section

namespace Cert.KernelIdeal.Pooled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run_fold : θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v14 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.Pooled

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibDenseBlock.lean ====
/-
  A fused dense layer on a block of rows, read at an entry, on the extended reals.

  The block computes  A · WL + X · WR + b  (and, for a rectified layer, the maximum of that with zero): the two
  matrix products are accumulated into zero matrices from operands first rounded to a narrower float format — at the
  ideal values the rounding is the identity —, they are added, and a one-row matrix `b` is repeated down the rows and
  added.  Entry (p, q) is

      (∑ k, A[p, k] · WL[k, q]  +  ∑ k, X[p, k] · WR[k, q])  +  b[0, q].

  All extents are variables.
-/
import proofs.«155075_j16088947491016_1_alg».proof.Proof.LibLayout

noncomputable section

namespace Cert.LibDenseBlock

open Idealize.ShloMosaic Idealize.ShloMosaic.ValueIdx

/-- Entry (p, q) of  A · WL + X · WR + b : the two contractions over the shared inner extent, then the bias of
    column q. -/
def affine {n d e : ℕ} (A X : FVec Ideal ⟨2, ![n, d]⟩ .f32) (WL WR : FVec Ideal ⟨2, ![d, e]⟩ .f32)
    (b : Fin e → Ideal .f32) (p : Fin n) (q : Fin e) : Ideal .f32 :=
  (∑ k : Fin d, A (ix2 p k) * WL (ix2 k q) + ∑ k : Fin d, X (ix2 p k) * WR (ix2 k q)) + b q

/-- The block's arithmetic as the vector unit spells it — operands rounded to a narrower format, two products into
    zero accumulators, their sum, a one-row bias repeated down the rows and added — is `affine` at every entry.
    The dimension record's own facts (one contracted axis of extent `d`, rows against columns) are hypotheses, closed
    at a literal record by `rfl`. -/
theorem block_affine_apply {r d e : ℕ} {ψ : FTy} (D : DotDims ⟨2, ![r, d]⟩ ⟨2, ![d, e]⟩ ⟨2, ![r, e]⟩)
    (hr : D.contr.rank = 1) (hs : D.contr.size ⟨0, by omega⟩ = d)
    (hlc : D.lhsContracting = [1]) (hrc : D.rhsContracting = [0])
    (hl0 : ∀ j k, (D.lhsIdx j k 0).val = (j 0).val) (hr1 : ∀ j k, (D.rhsIdx j k 1).val = (j 1).val)
    (hψ : ψ.bits < FTy.f32.bits)
    (a x : FVec Ideal ⟨2, ![r, d]⟩ .f32) (wl wr : FVec Ideal ⟨2, ![d, e]⟩ .f32) (b : FVec Ideal ⟨2, ![1, e]⟩ .f32)
    (hb : (⟨2, ![1, e]⟩ : Shape).Broadcasts ⟨2, ![r, e]⟩) (p : Fin r) (q : Fin e) :
    addf (addf (matmul D none (truncf ψ a hψ) (truncf ψ wl hψ) (constant ⟨2, ![r, e]⟩ .f32 0x00000000#32))
          (matmul D none (truncf ψ x hψ) (truncf ψ wr hψ) (constant ⟨2, ![r, e]⟩ .f32 0x00000000#32)))
        (broadcastTo ⟨2, ![r, e]⟩ b hb) (ix2 p q)
      = affine a x wl wr (fun q => b (ix2 (0 : Fin 1) q)) p q := by
  rw [addf_apply, addf_apply,
    Cert.LibLayout.matmul_rows_cols_apply D hr hs hlc hrc hl0 hr1 none (truncf ψ a hψ) (truncf ψ wl hψ) p q,
    Cert.LibLayout.matmul_rows_cols_apply D hr hs hlc hrc hl0 hr1 none (truncf ψ x hψ) (truncf ψ wr hψ) p q,
    broadcastTo_1b_ab_apply b hb p q]
  rfl

end Cert.LibDenseBlock

end
-- ==== Proof.Spec.lean ====
/-
  The mathematics of the gated readout, entry by entry, on the extended reals.

  A node row `n` with features `h n`, `x n` (64 each) is sent to the 64 numbers

      RR[n, d] = σ( tanh( ∑ₖ h[n,k]·Wih[k,d] + ∑ₖ x[n,k]·Wix[k,d] + bi[d] ) ) · max( ∑ₖ h[n,k]·Wj[k,d] + bj[d], 0 ),

  with σ the logistic function; the rows are then summed per graph, and a pooled row `P` of a graph is sent to the
  one number

      out = ∑ⱼ max( ∑_d bn[d]·W1[d,j] + b1[j], 0 ) · Wo[j] + bo,    bn[d] = (P[d] − μ[d]) · rsqrt(v[d] + ε) · γ[d] + β[d].

  The zero of the maximum and ε are kept as their binary patterns: both programs spell the same patterns.
-/
import Idealize.ShloMosaic.PureOps.Ideal
import Idealize.ShloMosaic.Lib.ValueIdx

noncomputable section

namespace Cert.GatedReadout

open Idealize.ShloMosaic Idealize.ShloMosaic.ValueIdx

/-- Entry `d` of a node's gated row: the logistic of the hyperbolic tangent of the first affine form, times the
    rectified second affine form. -/
def gate (hrow xrow : Fin 64 → Ideal .f32) (wih wix wj : Fin 64 → Fin 64 → Ideal .f32) (bi bj : Fin 64 → Ideal .f32)
    (d : Fin 64) : Ideal .f32 :=
  Ideal.logistic (Ideal.tanh ((∑ k : Fin 64, hrow k * wih k d + ∑ k : Fin 64, xrow k * wix k d) + bi d))
    * max (∑ k : Fin 64, hrow k * wj k d + bj d) (Ideal.ofBits .f32 0x00000000#32)

/-- Entry `d` of a pooled row after the inference-mode normalization. -/
def norm (prow gamma beta mean var : Fin 64 → Ideal .f32) (d : Fin 64) : Ideal .f32 :=
  ((prow d - mean d) * Ideal.rsqrt (var d + Ideal.ofBits .f32 0x3A83126F#32)) * gamma d + beta d

/-- The readout of one pooled row: a rectified dense layer of width 256 on the normalized row, then a dense layer
    of width one. -/
def readout (prow gamma beta mean var : Fin 64 → Ideal .f32) (w1 : Fin 64 → Fin 256 → Ideal .f32)
    (b1 : Fin 256 → Ideal .f32) (wo : Fin 256 → Ideal .f32) (bo : Ideal .f32) : Ideal .f32 :=
  (∑ j : Fin 256, max (∑ d : Fin 64, norm prow gamma beta mean var d * w1 d j + b1 j) (Ideal.ofBits .f32 0x00000000#32)
      * wo j) + bo

/-- The gated rows of all nodes as one array, from the operands as the first region is handed them: the two halves
    of the first weight matrix apart, the biases as one-row matrices. -/
def gatedArr {N : ℕ} (x h : FVec Ideal ⟨2, ![N, 64]⟩ .f32) (wih wix : FVec Ideal ⟨2, ![64, 64]⟩ .f32)
    (bi : FVec Ideal ⟨2, ![1, 64]⟩ .f32) (wj : FVec Ideal ⟨2, ![64, 64]⟩ .f32) (bj : FVec Ideal ⟨2, ![1, 64]⟩ .f32) :
    FVec Ideal ⟨2, ![N, 64]⟩ .f32 :=
  fun i => gate (fun k => h (ix2 (i 0) k)) (fun k => x (ix2 (i 0) k)) (fun k d => wih (ix2 k d))
    (fun k d => wix (ix2 k d)) (fun k d => wj (ix2 k d)) (fun d => bi (ix2 0 d)) (fun d => bj (ix2 0 d)) (i 1)

/-- The readouts of all graphs as one column, from the operands as the second region is handed them: the
    normalization's parameters and the first bias as one-row matrices, the last bias as a one-entry matrix. -/
def readoutArr {G : ℕ} (p : FVec Ideal ⟨2, ![G, 64]⟩ .f32) (gamma beta mean var : FVec Ideal ⟨2, ![1, 64]⟩ .f32)
    (w1 : FVec Ideal ⟨2, ![64, 256]⟩ .f32) (b1 : FVec Ideal ⟨2, ![1, 256]⟩ .f32) (wo : FVec Ideal ⟨2, ![256, 1]⟩ .f32)
    (bo : FVec Ideal ⟨2, ![1, 1]⟩ .f32) : FVec Ideal ⟨2, ![G, 1]⟩ .f32 :=
  fun i => readout (fun d => p (ix2 (i 0) d)) (fun d => gamma (ix2 0 d)) (fun d => beta (ix2 0 d))
    (fun d => mean (ix2 0 d)) (fun d => var (ix2 0 d)) (fun d j => w1 (ix2 d j)) (fun j => b1 (ix2 0 j))
    (fun j => wo (ix2 j (i 1))) (bo (ix2 0 (i 1)))

end Cert.GatedReadout

end
-- ==== Proof.Body0.lean ====
/-
  The first region's body at one entry.

  On a block of 8000 node rows the body forms  h·Wih + x·Wix + bi  and  h·Wj + bj  (matrix products into zero
  accumulators, the one-row biases repeated down the rows), and stores  σ(tanh(first)) · max(second, 0).  Entry (p, q)
  of the stored block therefore depends on row p of the two feature blocks only, and is the gated entry `gate` of
  that row.
-/
import proofs.«155075_j16088947491016_1_alg».proof.Proof.Gen.KernelIdeal.Skeleton
import proofs.«155075_j16088947491016_1_alg».proof.Proof.LibDenseBlock
import proofs.«155075_j16088947491016_1_alg».proof.Proof.Spec

noncomputable section

namespace Cert.KernelIdeal.GatedBody

open Idealize.ShloMosaic Idealize.ShloMosaic.ValueIdx Cert.KernelIdeal Cert.KernelIdeal.Gen Cert.GatedReadout

/-- The first region's matrix products contract the left operand's columns against the right operand's rows: a
    result entry's row is the left operand's row … -/
theorem dot64_lhs0 (j : S8000x64.Idx) (k : dot_S8000x64_S64x64_S8000x64_1_0_0_1_n_n.contr.Idx) :
    (dot_S8000x64_S64x64_S8000x64_1_0_0_1_n_n.lhsIdx j k 0).val = (j 0).val := by
  unfold DotDims.lhsIdx
  rw [dif_neg (show ¬(0 : Fin S8000x64.rank) ∈ dot_S8000x64_S64x64_S8000x64_1_0_0_1_n_n.lhsBatch by decide),
    dif_pos (show (0 : Fin S8000x64.rank) ∈ dot_S8000x64_S64x64_S8000x64_1_0_0_1_n_n.lhsNonContracting by decide)]
  rfl
/-- … and its column the right operand's column. -/
theorem dot64_rhs1 (j : S8000x64.Idx) (k : dot_S8000x64_S64x64_S8000x64_1_0_0_1_n_n.contr.Idx) :
    (dot_S8000x64_S64x64_S8000x64_1_0_0_1_n_n.rhsIdx j k 1).val = (j 1).val := by
  unfold DotDims.rhsIdx
  rw [dif_neg (show ¬(1 : Fin S64x64.rank) ∈ dot_S8000x64_S64x64_S8000x64_1_0_0_1_n_n.rhsBatch by decide),
    dif_pos (show (1 : Fin S64x64.rank) ∈ dot_S8000x64_S64x64_S8000x64_1_0_0_1_n_n.rhsNonContracting by decide)]
  rfl

/-- Entry (p, q) of what the first region's body stores, from its seven loaded blocks. -/
theorem gated_entry (x0 x1 : Vec Ideal S8000x64 .f32) (x2 x3 : Vec Ideal S64x64 .f32) (x4 : Vec Ideal S1x64 .f32)
    (x5 : Vec Ideal S64x64 .f32) (x6 : Vec Ideal S1x64 .f32) (p : Fin 8000) (q : Fin 64) :
    k0_pay1 (F := Ideal) x0 x1 x2 x3 x4 x5 x6 (ix2 p q)
      = gate (fun k => x1 (ix2 p k)) (fun k => x0 (ix2 p k)) (fun k d => x2 (ix2 k d)) (fun k d => x3 (ix2 k d))
          (fun k d => x5 (ix2 k d)) (fun d => x4 (ix2 0 d)) (fun d => x6 (ix2 0 d)) q := by
  unfold k0_pay1
  simp only [shapeCast_self]
  have e1 := Cert.LibDenseBlock.block_affine_apply dot_S8000x64_S64x64_S8000x64_1_0_0_1_n_n rfl rfl rfl rfl
    dot64_lhs0 dot64_rhs1 bitsLt_bf16_f32 x1 x0 x2 x3 x4 broadcasts_S1x64_S8000x64 p q
  have e2 := Cert.LibLayout.matmul_rows_cols_apply dot_S8000x64_S64x64_S8000x64_1_0_0_1_n_n rfl rfl rfl rfl
    dot64_lhs0 dot64_rhs1 none (truncf FTy.bf16 x1 bitsLt_bf16_f32) (truncf FTy.bf16 x5 bitsLt_bf16_f32) p q
  show Ideal.logistic (Ideal.tanh (addf (F := Ideal) (s := S8000x64) (φ := .f32) (addf _ _) _ (ix2 p q)))
    * max (addf (F := Ideal) (s := S8000x64) (φ := .f32) _ _ (ix2 p q)) (Ideal.ofBits .f32 0x00000000#32) = _
  rw [e1, addf_apply, e2, broadcastTo_1b_ab_apply]
  rfl

end Cert.KernelIdeal.GatedBody

end
-- ==== Proof.Blocks0.lean ====
/-
  From blocks to the array, first region.

  Grid point t of the first region reads rows 8000·t … 8000·t + 7999 of the two feature arrays (and the whole of the
  five small operands) and writes back the same rows of the result.  What it writes is the gated rows of those rows;
  the 250 points cover all 2,000,000 rows; so after the region the result array holds the gated rows of every node.
-/
import proofs.«155075_j16088947491016_1_alg».proof.Proof.Gen.KernelIdeal.Frame
import proofs.«155075_j16088947491016_1_alg».proof.Proof.Body0

set_option maxRecDepth 16384

noncomputable section

namespace Cert.KernelIdeal.GatedBlocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GatedReadout

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature windows and the result window sit at block row t, block
    column 0; the five small windows at block (0, 0). -/
theorem idx_facts : ∀ t : Fin cfg0.N, win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- What point t writes back is block t of the gated rows of the arrays as the region finds them. -/
theorem flushed_gated (c : Dev nD) (t : Fin cfg0.N) :
    (dat0 (F := Ideal) V c).flushed 7 t = ((cfg0.win 7).blk t).view.read (Elt Ideal)
      (gatedArr (V c main_arg0) (V c main_arg1) (V c main_v0) (V c main_v1) (V c main_v2) (V c main_arg4) (V c main_v3)) := by
  show (cfg0.win 7).cut (grid0.coords t) ((dat0 V c).after 7 t) = _
  rw [after0_7]
  unfold out0_7
  rw [View.canon_unit_zero hz]
  simp only [View.ld_unit_zero (S := S8000x64) hz, View.ld_unit_zero (S := S64x64) hz, View.ld_unit_zero (S := S1x64) hz]
  obtain ⟨e70, e71, e00, e01, e10, e11, e20, e21, e30, e31, e40, e41, e50, e51, e60, e61⟩ := idx_facts t
  funext j
  obtain ⟨p, q, rfl⟩ : ∃ (p : Fin 8000) (q : Fin 64), j = ix2 p q := ⟨j 0, j 1, eq_ix2 j⟩
  refine (Cert.KernelIdeal.GatedBody.gated_entry (iblk0 V c 0 t) (iblk0 V c 1 t) (iblk0 V c 2 t) (iblk0 V c 3 t)
    (iblk0 V c 4 t) (iblk0 V c 5 t) (iblk0 V c 6 t) p q).trans ?_
  have ht : t.val < 250 := lt_of_lt_of_eq t.isLt (show cfg0.N = 250 from N_0)
  have E7 : (((cfg0.win 7).blk t).view.emb (ix2 p q) : S2000000x64.Idx) = ix2 ⟨t.val * 8000 + p.val, by omega⟩ q := by
    funext a; apply Fin.ext
    match a with
    | ⟨0, _⟩ => show win0_7.index t (0 : Fin 2) * 8000 + 1 * p.val = t.val * 8000 + p.val; omega
    | ⟨1, _⟩ => show win0_7.index t (1 : Fin 2) * 64 + 1 * q.val = q.val; omega
  have E0 : ∀ k : Fin 64, (((cfg0.win 0).blk t).view.emb (ix2 p k) : S2000000x64.Idx) = ix2 ⟨t.val * 8000 + p.val, by omega⟩ k := fun k => by
    funext a; apply Fin.ext
    match a with
    | ⟨0, _⟩ => show win0_0.index t (0 : Fin 2) * 8000 + 1 * p.val = t.val * 8000 + p.val; omega
    | ⟨1, _⟩ => show win0_0.index t (1 : Fin 2) * 64 + 1 * k.val = k.val; omega
  have E1 : ∀ k : Fin 64, (((cfg0.win 1).blk t).view.emb (ix2 p k) : S2000000x64.Idx) = ix2 ⟨t.val * 8000 + p.val, by omega⟩ k := fun k => by
    funext a; apply Fin.ext
    match a with
    | ⟨0, _⟩ => show win0_1.index t (0 : Fin 2) * 8000 + 1 * p.val = t.val * 8000 + p.val; omega
    | ⟨1, _⟩ => show win0_1.index t (1 : Fin 2) * 64 + 1 * k.val = k.val; omega
  have E2 : ∀ k d : Fin 64, (((cfg0.win 2).blk t).view.emb (ix2 k d) : S64x64.Idx) = ix2 k d := fun k d => by
    funext a; apply Fin.ext
    match a with
    | ⟨0, _⟩ => show win0_2.index t (0 : Fin 2) * 64 + 1 * k.val = k.val; omega
    | ⟨1, _⟩ => show win0_2.index t (1 : Fin 2) * 64 + 1 * d.val = d.val; omega
  have E3 : ∀ k d : Fin 64, (((cfg0.win 3).blk t).view.emb (ix2 k d) : S64x64.Idx) = ix2 k d := fun k d => by
    funext a; apply Fin.ext
    match a with
    | ⟨0, _⟩ => show win0_3.index t (0 : Fin 2) * 64 + 1 * k.val = k.val; omega
    | ⟨1, _⟩ => show win0_3.index t (1 : Fin 2) * 64 + 1 * d.val = d.val; omega
  have E5 : ∀ k d : Fin 64, (((cfg0.win 5).blk t).view.emb (ix2 k d) : S64x64.Idx) = ix2 k d := fun k d => by
    funext a; apply Fin.ext
    match a with
    | ⟨0, _⟩ => show win0_5.index t (0 : Fin 2) * 64 + 1 * k.val = k.val; omega
    | ⟨1, _⟩ => show win0_5.index t (1 : Fin 2) * 64 + 1 * d.val = d.val; omega
  have E4 : ∀ d : Fin 64, (((cfg0.win 4).blk t).view.emb (ix2 (0 : Fin 1) d) : S1x64.Idx) = ix2 0 d := fun d => by
    funext a; apply Fin.ext
    match a with
    | ⟨0, _⟩ => show win0_4.index t (0 : Fin 2) * 1 + 1 * 0 = 0; omega
    | ⟨1, _⟩ => show win0_4.index t (1 : Fin 2) * 64 + 1 * d.val = d.val; omega
  have E6 : ∀ d : Fin 64, (((cfg0.win 6).blk t).view.emb (ix2 (0 : Fin 1) d) : S1x64.Idx) = ix2 0 d := fun d => by
    funext a; apply Fin.ext
    match a with
    | ⟨0, _⟩ => show win0_6.index t (0 : Fin 2) * 1 + 1 * 0 = 0; omega
    | ⟨1, _⟩ => show win0_6.index t (1 : Fin 2) * 64 + 1 * d.val = d.val; omega
  show gate (fun k => V c main_arg1 (((cfg0.win 1).blk t).view.emb (ix2 p k)))
      (fun k => V c main_arg0 (((cfg0.win 0).blk t).view.emb (ix2 p k)))
      (fun k d => V c main_v0 (((cfg0.win 2).blk t).view.emb (ix2 k d)))
      (fun k d => V c main_v1 (((cfg0.win 3).blk t).view.emb (ix2 k d)))
      (fun k d => V c main_arg4 (((cfg0.win 5).blk t).view.emb (ix2 k d)))
      (fun d => V c main_v2 (((cfg0.win 4).blk t).view.emb (ix2 0 d)))
      (fun d => V c main_v3 (((cfg0.win 6).blk t).view.emb (ix2 0 d))) q
    = gatedArr (V c main_arg0) (V c main_arg1) (V c main_v0) (V c main_v1) (V c main_v2) (V c main_arg4) (V c main_v3)
        (((cfg0.win 7).blk t).view.emb (ix2 p q))
  rw [E7]
  simp only [E0, E1, E2, E3, E4, E5, E6]
  rfl

/-- An index of the result array is in point t's block iff each coordinate is in the block's range on its axis. -/
theorem mem_blk (t : Fin cfg0.N) (i : S2000000x64.Idx) :
    i ∈ ((cfg0.win 7).blk t).view.set ↔ ∀ a : Fin 2, win0_7.index t a * S8000x64.size a ≤ (i a).val
      ∧ (i a).val < win0_7.index t a * S8000x64.size a + S8000x64.size a := by
  show i ∈ ((View.whole main_v4).slice (win0_7.rect t)).set ↔ _
  rw [View.set_slice_whole, Rect.mem_set_unit]
  exact Iff.rfl

/-- Row r of the result array is written back by point r / 8000. -/
theorem cover (i : S2000000x64.Idx) :
    ∃ t : Fin cfg0.N, (cfg0.win 7).flush t = true ∧ i ∈ ((cfg0.win 7).blk t).view.set := by
  have hi0 : (i 0).val < 2000000 := (i 0).isLt
  have hi1 : (i 1).val < 64 := (i 1).isLt
  have hlt : (i 0).val / 8000 < cfg0.N := lt_of_lt_of_eq (by omega : (i 0).val / 8000 < 250) (show cfg0.N = 250 from N_0).symm
  obtain ⟨e70, e71, -⟩ := idx_facts ⟨(i 0).val / 8000, hlt⟩
  refine ⟨⟨(i 0).val / 8000, hlt⟩, flush0_7 _, ?_⟩
  rw [mem_blk]
  intro a
  match a with
  | ⟨0, _⟩ =>
    show win0_7.index ⟨(i 0).val / 8000, hlt⟩ (0 : Fin 2) * 8000 ≤ (i 0).val
      ∧ (i 0).val < win0_7.index ⟨(i 0).val / 8000, hlt⟩ (0 : Fin 2) * 8000 + 8000
    rw [e70]; show (i 0).val / 8000 * 8000 ≤ (i 0).val ∧ (i 0).val < (i 0).val / 8000 * 8000 + 8000; omega
  | ⟨1, _⟩ =>
    show win0_7.index ⟨(i 0).val / 8000, hlt⟩ (1 : Fin 2) * 64 ≤ (i 1).val
      ∧ (i 1).val < win0_7.index ⟨(i 0).val / 8000, hlt⟩ (1 : Fin 2) * 64 + 64
    rw [e71]; omega

/-- After the first region the result array holds the gated rows of every node, of the arrays as the region finds
    them. -/
theorem final_gated (c : Dev nD) :
    (dat0 (F := Ideal) V c).arrAt 7 cfg0.N
      = gatedArr (V c main_arg0) (V c main_arg1) (V c main_v0) (V c main_v1) (V c main_v2) (V c main_arg4) (V c main_v3) :=
  (dat0 V c).arrAt_eq_of_cover 7 _ (fun t _ => flushed_gated V c t) cover

end Cert.KernelIdeal.GatedBlocks

end
-- ==== Proof.Body1.lean ====
/-
  The second region's body at one entry.

  On a block of 1024 pooled rows the body normalizes each row, ((P − μ) · rsqrt(v + ε)) · γ + β with the one-row
  parameters repeated down the rows, applies the rectified dense layer of width 256 and the dense layer of width one,
  both matrix products into zero accumulators.  Entry (p, q) of the stored column depends on row p of the pooled
  block only, and is the readout `readout` of that row.
-/
import proofs.«155075_j16088947491016_1_alg».proof.Proof.Gen.KernelIdeal.Skeleton
import proofs.«155075_j16088947491016_1_alg».proof.Proof.LibLayout
import proofs.«155075_j16088947491016_1_alg».proof.Proof.Spec

noncomputable section

namespace Cert.KernelIdeal.ReadoutBody

open Idealize.ShloMosaic Idealize.ShloMosaic.ValueIdx Cert.KernelIdeal Cert.KernelIdeal.Gen Cert.GatedReadout

/-- The hidden layer's product contracts the normalized rows' columns against the weight's rows. -/
theorem dotHidden_lhs0 (j : S1024x256.Idx) (k : dot_S1024x64_S64x256_S1024x256_1_0_0_1_n_n.contr.Idx) :
    (dot_S1024x64_S64x256_S1024x256_1_0_0_1_n_n.lhsIdx j k 0).val = (j 0).val := by
  unfold DotDims.lhsIdx
  rw [dif_neg (show ¬(0 : Fin S1024x64.rank) ∈ dot_S1024x64_S64x256_S1024x256_1_0_0_1_n_n.lhsBatch by decide),
    dif_pos (show (0 : Fin S1024x64.rank) ∈ dot_S1024x64_S64x256_S1024x256_1_0_0_1_n_n.lhsNonContracting by decide)]
  rfl
theorem dotHidden_rhs1 (j : S1024x256.Idx) (k : dot_S1024x64_S64x256_S1024x256_1_0_0_1_n_n.contr.Idx) :
    (dot_S1024x64_S64x256_S1024x256_1_0_0_1_n_n.rhsIdx j k 1).val = (j 1).val := by
  unfold DotDims.rhsIdx
  rw [dif_neg (show ¬(1 : Fin S64x256.rank) ∈ dot_S1024x64_S64x256_S1024x256_1_0_0_1_n_n.rhsBatch by decide),
    dif_pos (show (1 : Fin S64x256.rank) ∈ dot_S1024x64_S64x256_S1024x256_1_0_0_1_n_n.rhsNonContracting by decide)]
  rfl

/-- The output layer's product likewise. -/
theorem dotOut_lhs0 (j : S1024x1.Idx) (k : dot_S1024x256_S256x1_S1024x1_1_0_0_1_n_n.contr.Idx) :
    (dot_S1024x256_S256x1_S1024x1_1_0_0_1_n_n.lhsIdx j k 0).val = (j 0).val := by
  unfold DotDims.lhsIdx
  rw [dif_neg (show ¬(0 : Fin S1024x256.rank) ∈ dot_S1024x256_S256x1_S1024x1_1_0_0_1_n_n.lhsBatch by decide),
    dif_pos (show (0 : Fin S1024x256.rank) ∈ dot_S1024x256_S256x1_S1024x1_1_0_0_1_n_n.lhsNonContracting by decide)]
  rfl
theorem dotOut_rhs1 (j : S1024x1.Idx) (k : dot_S1024x256_S256x1_S1024x1_1_0_0_1_n_n.contr.Idx) :
    (dot_S1024x256_S256x1_S1024x1_1_0_0_1_n_n.rhsIdx j k 1).val = (j 1).val := by
  unfold DotDims.rhsIdx
  rw [dif_neg (show ¬(1 : Fin S256x1.rank) ∈ dot_S1024x256_S256x1_S1024x1_1_0_0_1_n_n.rhsBatch by decide),
    dif_pos (show (1 : Fin S256x1.rank) ∈ dot_S1024x256_S256x1_S1024x1_1_0_0_1_n_n.rhsNonContracting by decide)]
  rfl

/-- Entry (p, q) of what the second region's body stores, from its nine loaded blocks. -/
theorem readout_entry (x0 : Vec Ideal S1024x64 .f32) (x1 x2 x3 x4 : Vec Ideal S1x64 .f32) (x5 : Vec Ideal S64x256 .f32)
    (x6 : Vec Ideal S1x256 .f32) (x7 : Vec Ideal S256x1 .f32) (x8 : Vec Ideal S1x1 .f32) (p : Fin 1024) (q : Fin 1) :
    k1_pay1 (F := Ideal) (k1_pay2 x8) (k1_pay3 x0 x1 x2 x3 x4 x5 x6 x7) (ix2 p q)
      = readout (fun d => x0 (ix2 p d)) (fun d => x1 (ix2 0 d)) (fun d => x2 (ix2 0 d)) (fun d => x3 (ix2 0 d))
          (fun d => x4 (ix2 0 d)) (fun d j => x5 (ix2 d j)) (fun j => x6 (ix2 0 j)) (fun j => x7 (ix2 j q))
          (x8 (ix2 0 q)) := by
  unfold k1_pay1 k1_pay2 k1_pay3
  simp only [shapeCast_self]
  rw [addf_apply, Cert.LibLayout.matmul_rows_cols_apply dot_S1024x256_S256x1_S1024x1_1_0_0_1_n_n rfl rfl rfl rfl dotOut_lhs0 dotOut_rhs1,
    broadcastTo_1b_ab_apply]
  unfold readout
  refine congrArg (· + _) (Finset.sum_congr rfl fun j _ => ?_)
  rw [truncf_apply, truncf_apply, maximumf_apply, broadcast_apply, addf_apply,
    Cert.LibLayout.matmul_rows_cols_apply dot_S1024x64_S64x256_S1024x256_1_0_0_1_n_n rfl rfl rfl rfl dotHidden_lhs0 dotHidden_rhs1,
    broadcastTo_1b_ab_apply]
  refine congrArg (fun s => max (s + x6 (ix2 0 j)) (Ideal.ofBits .f32 0x00000000#32) * x7 (ix2 j q))
    (Finset.sum_congr rfl fun d _ => ?_)
  rw [truncf_apply, truncf_apply, addf_apply, mulf_apply, mulf_apply, subf_apply, broadcastTo_1b_ab_apply,
    broadcastTo_1b_ab_apply, broadcastTo_1b_ab_apply, broadcastTo_1b_ab_apply]
  rfl

end Cert.KernelIdeal.ReadoutBody

end
-- ==== Proof.Blocks1.lean ====
/-
  From blocks to the array, second region.

  Grid point t of the second region reads pooled rows 1024·t … 1024·t + 1023 (and the whole of the eight small
  operands) and writes back the same rows of the result column.  What it writes is the readouts of those rows; the
  four points cover all 4096 rows; so after the region the result column holds the readout of every graph.
-/
import proofs.«155075_j16088947491016_1_alg».proof.Proof.Gen.KernelIdeal.Frame
import proofs.«155075_j16088947491016_1_alg».proof.Proof.Body1

set_option maxRecDepth 16384

noncomputable section

namespace Cert.KernelIdeal.ReadoutBlocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GatedReadout

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the pooled window and the result window sit at block row t, block column 0;
    the eight small windows at block (0, 0). -/
theorem idx_facts : ∀ t : Fin cfg1.N, win1_9.index t (0 : Fin 2) = t.val ∧ win1_9.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- What point t writes back is block t of the readouts of the arrays as the region finds them. -/
theorem flushed_readout (c : Dev nD) (t : Fin cfg1.N) :
    (dat1 (F := Ideal) V c).flushed 9 t = ((cfg1.win 9).blk t).view.read (Elt Ideal)
      (readoutArr (V c main_v7) (V c main_v8) (V c main_v9) (V c main_v10) (V c main_v11) (V c main_arg10) (V c main_v12)
        (V c main_arg12) (V c main_v13)) := by
  show (cfg1.win 9).cut (grid1.coords t) ((dat1 V c).after 9 t) = _
  rw [after1_9]
  unfold out1_9
  rw [View.canon_unit_zero hz]
  simp only [View.ld_unit_zero (S := S1024x64) hz, View.ld_unit_zero (S := S1x64) hz, View.ld_unit_zero (S := S64x256) hz,
    View.ld_unit_zero (S := S1x256) hz, View.ld_unit_zero (S := S256x1) hz, View.ld_unit_zero (S := S1x1) hz]
  obtain ⟨e90, e91, e00, e01, e10, e11, e20, e21, e30, e31, e40, e41, e50, e51, e60, e61, e70, e71, e80, e81⟩ := idx_facts t
  funext j
  obtain ⟨p, q, rfl⟩ : ∃ (p : Fin 1024) (q : Fin 1), j = ix2 p q := ⟨j 0, j 1, eq_ix2 j⟩
  refine (Cert.KernelIdeal.ReadoutBody.readout_entry (iblk1 V c 0 t) (iblk1 V c 1 t) (iblk1 V c 2 t) (iblk1 V c 3 t)
    (iblk1 V c 4 t) (iblk1 V c 5 t) (iblk1 V c 6 t) (iblk1 V c 7 t) (iblk1 V c 8 t) p q).trans ?_
  have ht : t.val < 4 := lt_of_lt_of_eq t.isLt (show cfg1.N = 4 from N_1)
  have hq : q.val = 0 := by omega
  have E9 : (((cfg1.win 9).blk t).view.emb (ix2 p q) : S4096x1.Idx) = ix2 ⟨t.val * 1024 + p.val, by omega⟩ q := by
    funext a; apply Fin.ext
    match a with
    | ⟨0, _⟩ => show win1_9.index t (0 : Fin 2) * 1024 + 1 * p.val = t.val * 1024 + p.val; omega
    | ⟨1, _⟩ => show win1_9.index t (1 : Fin 2) * 1 + 1 * q.val = q.val; omega
  have E0 : ∀ d : Fin 64, (((cfg1.win 0).blk t).view.emb (ix2 p d) : S4096x64.Idx) = ix2 ⟨t.val * 1024 + p.val, by omega⟩ d := fun d => by
    funext a; apply Fin.ext
    match a with
    | ⟨0, _⟩ => show win1_0.index t (0 : Fin 2) * 1024 + 1 * p.val = t.val * 1024 + p.val; omega
    | ⟨1, _⟩ => show win1_0.index t (1 : Fin 2) * 64 + 1 * d.val = d.val; omega
  have E1 : ∀ d : Fin 64, (((cfg1.win 1).blk t).view.emb (ix2 (0 : Fin 1) d) : S1x64.Idx) = ix2 0 d := fun d => by
    funext a; apply Fin.ext
    match a with
    | ⟨0, _⟩ => show win1_1.index t (0 : Fin 2) * 1 + 1 * 0 = 0; omega
    | ⟨1, _⟩ => show win1_1.index t (1 : Fin 2) * 64 + 1 * d.val = d.val; omega
  have E2 : ∀ d : Fin 64, (((cfg1.win 2).blk t).view.emb (ix2 (0 : Fin 1) d) : S1x64.Idx) = ix2 0 d := fun d => by
    funext a; apply Fin.ext
    match a with
    | ⟨0, _⟩ => show win1_2.index t (0 : Fin 2) * 1 + 1 * 0 = 0; omega
    | ⟨1, _⟩ => show win1_2.index t (1 : Fin 2) * 64 + 1 * d.val = d.val; omega
  have E3 : ∀ d : Fin 64, (((cfg1.win 3).blk t).view.emb (ix2 (0 : Fin 1) d) : S1x64.Idx) = ix2 0 d := fun d => by
    funext a; apply Fin.ext
    match a with
    | ⟨0, _⟩ => show win1_3.index t (0 : Fin 2) * 1 + 1 * 0 = 0; omega
    | ⟨1, _⟩ => show win1_3.index t (1 : Fin 2) * 64 + 1 * d.val = d.val; omega
  have E4 : ∀ d : Fin 64, (((cfg1.win 4).blk t).view.emb (ix2 (0 : Fin 1) d) : S1x64.Idx) = ix2 0 d := fun d => by
    funext a; apply Fin.ext
    match a with
    | ⟨0, _⟩ => show win1_4.index t (0 : Fin 2) * 1 + 1 * 0 = 0; omega
    | ⟨1, _⟩ => show win1_4.index t (1 : Fin 2) * 64 + 1 * d.val = d.val; omega
  have E5 : ∀ (d : Fin 64) (j : Fin 256), (((cfg1.win 5).blk t).view.emb (ix2 d j) : S64x256.Idx) = ix2 d j := fun d j => by
    funext a; apply Fin.ext
    match a with
    | ⟨0, _⟩ => show win1_5.index t (0 : Fin 2) * 64 + 1 * d.val = d.val; omega
    | ⟨1, _⟩ => show win1_5.index t (1 : Fin 2) * 256 + 1 * j.val = j.val; omega
  have E6 : ∀ j : Fin 256, (((cfg1.win 6).blk t).view.emb (ix2 (0 : Fin 1) j) : S1x256.Idx) = ix2 0 j := fun j => by
    funext a; apply Fin.ext
    match a with
    | ⟨0, _⟩ => show win1_6.index t (0 : Fin 2) * 1 + 1 * 0 = 0; omega
    | ⟨1, _⟩ => show win1_6.index t (1 : Fin 2) * 256 + 1 * j.val = j.val; omega
  have E7 : ∀ j : Fin 256, (((cfg1.win 7).blk t).view.emb (ix2 j q) : S256x1.Idx) = ix2 j q := fun j => by
    funext a; apply Fin.ext
    match a with
    | ⟨0, _⟩ => show win1_7.index t (0 : Fin 2) * 256 + 1 * j.val = j.val; omega
    | ⟨1, _⟩ => show win1_7.index t (1 : Fin 2) * 1 + 1 * q.val = q.val; omega
  have E8 : (((cfg1.win 8).blk t).view.emb (ix2 (0 : Fin 1) q) : S1x1.Idx) = ix2 0 q := by
    funext a; apply Fin.ext
    match a with
    | ⟨0, _⟩ => show win1_8.index t (0 : Fin 2) * 1 + 1 * 0 = 0; omega
    | ⟨1, _⟩ => show win1_8.index t (1 : Fin 2) * 1 + 1 * q.val = q.val; omega
  show readout (fun d => V c main_v7 (((cfg1.win 0).blk t).view.emb (ix2 p d)))
      (fun d => V c main_v8 (((cfg1.win 1).blk t).view.emb (ix2 0 d)))
      (fun d => V c main_v9 (((cfg1.win 2).blk t).view.emb (ix2 0 d)))
      (fun d => V c main_v10 (((cfg1.win 3).blk t).view.emb (ix2 0 d)))
      (fun d => V c main_v11 (((cfg1.win 4).blk t).view.emb (ix2 0 d)))
      (fun d j => V c main_arg10 (((cfg1.win 5).blk t).view.emb (ix2 d j)))
      (fun j => V c main_v12 (((cfg1.win 6).blk t).view.emb (ix2 0 j)))
      (fun j => V c main_arg12 (((cfg1.win 7).blk t).view.emb (ix2 j q)))
      (V c main_v13 (((cfg1.win 8).blk t).view.emb (ix2 0 q)))
    = readoutArr (V c main_v7) (V c main_v8) (V c main_v9) (V c main_v10) (V c main_v11) (V c main_arg10) (V c main_v12)
        (V c main_arg12) (V c main_v13) (((cfg1.win 9).blk t).view.emb (ix2 p q))
  rw [E9]
  simp only [E0, E1, E2, E3, E4, E5, E6, E7, E8]
  rfl

/-- An index of the result column is in point t's block iff each coordinate is in the block's range on its axis. -/
theorem mem_blk (t : Fin cfg1.N) (i : S4096x1.Idx) :
    i ∈ ((cfg1.win 9).blk t).view.set ↔ ∀ a : Fin 2, win1_9.index t a * S1024x1.size a ≤ (i a).val
      ∧ (i a).val < win1_9.index t a * S1024x1.size a + S1024x1.size a := by
  show i ∈ ((View.whole main_v14).slice (win1_9.rect t)).set ↔ _
  rw [View.set_slice_whole, Rect.mem_set_unit]
  exact Iff.rfl

/-- Row r of the result column is written back by point r / 1024. -/
theorem cover (i : S4096x1.Idx) :
    ∃ t : Fin cfg1.N, (cfg1.win 9).flush t = true ∧ i ∈ ((cfg1.win 9).blk t).view.set := by
  have hi0 : (i 0).val < 4096 := (i 0).isLt
  have hi1 : (i 1).val < 1 := (i 1).isLt
  have hlt : (i 0).val / 1024 < cfg1.N := lt_of_lt_of_eq (by omega : (i 0).val / 1024 < 4) (show cfg1.N = 4 from N_1).symm
  obtain ⟨e90, e91, -⟩ := idx_facts ⟨(i 0).val / 1024, hlt⟩
  refine ⟨⟨(i 0).val / 1024, hlt⟩, flush1_9 _, ?_⟩
  rw [mem_blk]
  intro a
  match a with
  | ⟨0, _⟩ =>
    show win1_9.index ⟨(i 0).val / 1024, hlt⟩ (0 : Fin 2) * 1024 ≤ (i 0).val
      ∧ (i 0).val < win1_9.index ⟨(i 0).val / 1024, hlt⟩ (0 : Fin 2) * 1024 + 1024
    rw [e90]; show (i 0).val / 1024 * 1024 ≤ (i 0).val ∧ (i 0).val < (i 0).val / 1024 * 1024 + 1024; omega
  | ⟨1, _⟩ =>
    show win1_9.index ⟨(i 0).val / 1024, hlt⟩ (1 : Fin 2) * 1 ≤ (i 1).val
      ∧ (i 1).val < win1_9.index ⟨(i 0).val / 1024, hlt⟩ (1 : Fin 2) * 1 + 1
    rw [e91]; omega

/-- After the second region the result column holds the readout of every graph, of the arrays as the region finds
    them. -/
theorem final_readout (c : Dev nD) :
    (dat1 (F := Ideal) V c).arrAt 9 cfg1.N
      = readoutArr (V c main_v7) (V c main_v8) (V c main_v9) (V c main_v10) (V c main_v11) (V c main_arg10) (V c main_v12)
          (V c main_arg12) (V c main_v13) :=
  (dat1 V c).arrAt_eq_of_cover 9 _ (fun t _ => flushed_readout V c t) cover

end Cert.KernelIdeal.ReadoutBlocks

end
-- ==== Proof.Fold.lean ====
/-
  The fold of the four segments at the result buffer.

  Read through the segments backwards: the result buffer is the second region's result array, the readouts of the
  arrays that region finds; of those, the pooled rows are the host's per-graph sum of the first region's result
  array — the gated rows of the arrays that region finds —, the one-row operands are the argument vectors laid as rows,
  and the halves of the first weight matrix are cut from the argument.  No segment writes an argument.
-/
import proofs.«155075_j16088947491016_1_alg».proof.Proof.KRun
import proofs.«155075_j16088947491016_1_alg».proof.Proof.Blocks0
import proofs.«155075_j16088947491016_1_alg».proof.Proof.Blocks1

set_option maxRecDepth 16384

noncomputable section

namespace Cert.KernelIdeal.Pooled

open Idealize.ShloMosaic Idealize.ShloMosaic.TcCoe Idealize.ShloMosaic.ValueIdx Idealize.SL.Sem Idealize.ShloMosaic.StableHlo
open Cert.KernelIdeal Cert.KernelIdeal.Gen Cert.GatedReadout

variable (m : (ℓ : Loc nD τ sig) → Buf (Elt Ideal) ℓ) (ρ : Dev nD → PrngReg)

/-! ## What the first region finds -/

theorem entry0_arg0 (c : Dev nD) : V1 (F := Ideal) m ρ c main_arg0 = m ((c : Thread nD τ).loc main_arg0) := by
  show StableHlo.after hostOps0 (W0 m ρ c) (Proc.devRef .tc main_arg0) = _
  after_results <;> rfl

theorem entry0_arg1 (c : Dev nD) : V1 (F := Ideal) m ρ c main_arg1 = m ((c : Thread nD τ).loc main_arg1) := by
  show StableHlo.after hostOps0 (W0 m ρ c) (Proc.devRef .tc main_arg1) = _
  after_results <;> rfl

theorem entry0_arg4 (c : Dev nD) : V1 (F := Ideal) m ρ c main_arg4 = m ((c : Thread nD τ).loc main_arg4) := by
  show StableHlo.after hostOps0 (W0 m ρ c) (Proc.devRef .tc main_arg4) = _
  after_results <;> rfl

theorem entry0_v0 (c : Dev nD) : V1 (F := Ideal) m ρ c main_v0 = extractStridedSlice S64x64 ![0, 0] (m ((c : Thread nD τ).loc main_arg2)) slices_S128x64_S64x64_0_0 := by
  show StableHlo.after hostOps0 (W0 m ρ c) (Proc.devRef .tc main_v0) = _
  after_results <;> rfl

theorem entry0_v1 (c : Dev nD) : V1 (F := Ideal) m ρ c main_v1 = extractStridedSlice S64x64 ![64, 0] (m ((c : Thread nD τ).loc main_arg2)) slices_S128x64_S64x64_64_0 := by
  show StableHlo.after hostOps0 (W0 m ρ c) (Proc.devRef .tc main_v1) = _
  after_results <;> rfl

theorem entry0_v2 (c : Dev nD) : V1 (F := Ideal) m ρ c main_v2 = shapeCast S1x64 (m ((c : Thread nD τ).loc main_arg3)) shapeCasts_S64_S1x64 := by
  show StableHlo.after hostOps0 (W0 m ρ c) (Proc.devRef .tc main_v2) = _
  after_results <;> rfl

theorem entry0_v3 (c : Dev nD) : V1 (F := Ideal) m ρ c main_v3 = shapeCast S1x64 (m ((c : Thread nD τ).loc main_arg5)) shapeCasts_S64_S1x64 := by
  show StableHlo.after hostOps0 (W0 m ρ c) (Proc.devRef .tc main_v3) = _
  after_results <;> rfl

/-! ## What the first region leaves -/

/-- Its result array: the gated rows of every node. -/
theorem gated_at_exit (c : Dev nD) : W2 (F := Ideal) m ρ c (Proc.devRef .tc main_v4) = (gatedArr (m ((c : Thread nD τ).loc main_arg0)) (m ((c : Thread nD τ).loc main_arg1))
        (extractStridedSlice S64x64 ![0, 0] (m ((c : Thread nD τ).loc main_arg2)) slices_S128x64_S64x64_0_0)
        (extractStridedSlice S64x64 ![64, 0] (m ((c : Thread nD τ).loc main_arg2)) slices_S128x64_S64x64_64_0)
        (shapeCast S1x64 (m ((c : Thread nD τ).loc main_arg3)) shapeCasts_S64_S1x64) (m ((c : Thread nD τ).loc main_arg4))
        (shapeCast S1x64 (m ((c : Thread nD τ).loc main_arg5)) shapeCasts_S64_S1x64)) :=
  (W2_arr m ρ c 7).trans ((Cert.KernelIdeal.GatedBlocks.final_gated (V1 m ρ) c).trans (by
    rw [entry0_arg0, entry0_arg1, entry0_arg4, entry0_v0, entry0_v1, entry0_v2, entry0_v3]))

theorem mid_arg6 (c : Dev nD) : W2 (F := Ideal) m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results <;> rfl

theorem mid_arg7 (c : Dev nD) : W2 (F := Ideal) m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results <;> rfl

theorem mid_arg8 (c : Dev nD) : W2 (F := Ideal) m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results <;> rfl

theorem mid_arg9 (c : Dev nD) : W2 (F := Ideal) m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results <;> rfl

theorem mid_arg10 (c : Dev nD) : W2 (F := Ideal) m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results <;> rfl

theorem mid_arg11 (c : Dev nD) : W2 (F := Ideal) m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results <;> rfl

theorem mid_arg12 (c : Dev nD) : W2 (F := Ideal) m ρ c (Proc.devRef .tc main_arg12) = m ((c : Thread nD τ).loc main_arg12) := by
  rw [W2_of_ne m ρ c main_arg12 (by decide)]
  show StableHlo.after hostOps0 (W0 m ρ c) (Proc.devRef .tc main_arg12) = _
  after_results <;> rfl

theorem mid_arg13 (c : Dev nD) : W2 (F := Ideal) m ρ c (Proc.devRef .tc main_arg13) = m ((c : Thread nD τ).loc main_arg13) := by
  rw [W2_of_ne m ρ c main_arg13 (by decide)]
  show StableHlo.after hostOps0 (W0 m ρ c) (Proc.devRef .tc main_arg13) = _
  after_results <;> rfl

theorem mid_arg14 (c : Dev nD) : W2 (F := Ideal) m ρ c (Proc.devRef .tc main_arg14) = m ((c : Thread nD τ).loc main_arg14) := by
  rw [W2_of_ne m ρ c main_arg14 (by decide)]
  show StableHlo.after hostOps0 (W0 m ρ c) (Proc.devRef .tc main_arg14) = _
  after_results <;> rfl

/-! ## What the second region finds -/

theorem entry1_v7 (c : Dev nD) : V3 (F := Ideal) m ρ c main_v7 = (Host.scatterAdd scatter_S4096x64_S2000000x1_S2000000x64_1_0_0_1
        (broadcastInDim S4096x64 ![] bcast_S_S4096x64 (constant (F := Ideal) S_ .f32 0x00000000#32))
        (broadcastInDim S2000000x1 ![0] bcast_S2000000_S2000000x1_0 (m ((c : Thread nD τ).loc main_arg14)))
        (gatedArr (m ((c : Thread nD τ).loc main_arg0)) (m ((c : Thread nD τ).loc main_arg1))
        (extractStridedSlice S64x64 ![0, 0] (m ((c : Thread nD τ).loc main_arg2)) slices_S128x64_S64x64_0_0)
        (extractStridedSlice S64x64 ![64, 0] (m ((c : Thread nD τ).loc main_arg2)) slices_S128x64_S64x64_64_0)
        (shapeCast S1x64 (m ((c : Thread nD τ).loc main_arg3)) shapeCasts_S64_S1x64) (m ((c : Thread nD τ).loc main_arg4))
        (shapeCast S1x64 (m ((c : Thread nD τ).loc main_arg5)) shapeCasts_S64_S1x64))) := by
  show StableHlo.after hostOps1 (W2 m ρ c) (Proc.devRef .tc main_v7) = _
  after_results
  rw [mid_arg14, gated_at_exit]
  try rfl

theorem entry1_v8 (c : Dev nD) : V3 (F := Ideal) m ρ c main_v8 = shapeCast S1x64 (m ((c : Thread nD τ).loc main_arg6)) shapeCasts_S64_S1x64 := by
  show StableHlo.after hostOps1 (W2 m ρ c) (Proc.devRef .tc main_v8) = _
  after_results
  rw [mid_arg6]
  try rfl

theorem entry1_v9 (c : Dev nD) : V3 (F := Ideal) m ρ c main_v9 = shapeCast S1x64 (m ((c : Thread nD τ).loc main_arg7)) shapeCasts_S64_S1x64 := by
  show StableHlo.after hostOps1 (W2 m ρ c) (Proc.devRef .tc main_v9) = _
  after_results
  rw [mid_arg7]
  try rfl

theorem entry1_v10 (c : Dev nD) : V3 (F := Ideal) m ρ c main_v10 = shapeCast S1x64 (m ((c : Thread nD τ).loc main_arg8)) shapeCasts_S64_S1x64 := by
  show StableHlo.after hostOps1 (W2 m ρ c) (Proc.devRef .tc main_v10) = _
  after_results
  rw [mid_arg8]
  try rfl

theorem entry1_v11 (c : Dev nD) : V3 (F := Ideal) m ρ c main_v11 = shapeCast S1x64 (m ((c : Thread nD τ).loc main_arg9)) shapeCasts_S64_S1x64 := by
  show StableHlo.after hostOps1 (W2 m ρ c) (Proc.devRef .tc main_v11) = _
  after_results
  rw [mid_arg9]
  try rfl

theorem entry1_arg10 (c : Dev nD) : V3 (F := Ideal) m ρ c main_arg10 = m ((c : Thread nD τ).loc main_arg10) := by
  show StableHlo.after hostOps1 (W2 m ρ c) (Proc.devRef .tc main_arg10) = _
  after_results
  rw [mid_arg10]
  try rfl

theorem entry1_v12 (c : Dev nD) : V3 (F := Ideal) m ρ c main_v12 = shapeCast S1x256 (m ((c : Thread nD τ).loc main_arg11)) shapeCasts_S256_S1x256 := by
  show StableHlo.after hostOps1 (W2 m ρ c) (Proc.devRef .tc main_v12) = _
  after_results
  rw [mid_arg11]
  try rfl

theorem entry1_arg12 (c : Dev nD) : V3 (F := Ideal) m ρ c main_arg12 = m ((c : Thread nD τ).loc main_arg12) := by
  show StableHlo.after hostOps1 (W2 m ρ c) (Proc.devRef .tc main_arg12) = _
  after_results
  rw [mid_arg12]
  try rfl

theorem entry1_v13 (c : Dev nD) : V3 (F := Ideal) m ρ c main_v13 = shapeCast S1x1 (m ((c : Thread nD τ).loc main_arg13)) shapeCasts_S1_S1x1 := by
  show StableHlo.after hostOps1 (W2 m ρ c) (Proc.devRef .tc main_v13) = _
  after_results
  rw [mid_arg13]
  try rfl

/-! ## The result -/

/-- The program's result as one function of its arguments. -/
def result (c : Dev nD) : FVec Ideal ⟨2, ![4096, 1]⟩ .f32 :=
  readoutArr (Host.scatterAdd scatter_S4096x64_S2000000x1_S2000000x64_1_0_0_1
        (broadcastInDim S4096x64 ![] bcast_S_S4096x64 (constant (F := Ideal) S_ .f32 0x00000000#32))
        (broadcastInDim S2000000x1 ![0] bcast_S2000000_S2000000x1_0 (m ((c : Thread nD τ).loc main_arg14)))
        (gatedArr (m ((c : Thread nD τ).loc main_arg0)) (m ((c : Thread nD τ).loc main_arg1))
        (extractStridedSlice S64x64 ![0, 0] (m ((c : Thread nD τ).loc main_arg2)) slices_S128x64_S64x64_0_0)
        (extractStridedSlice S64x64 ![64, 0] (m ((c : Thread nD τ).loc main_arg2)) slices_S128x64_S64x64_64_0)
        (shapeCast S1x64 (m ((c : Thread nD τ).loc main_arg3)) shapeCasts_S64_S1x64) (m ((c : Thread nD τ).loc main_arg4))
        (shapeCast S1x64 (m ((c : Thread nD τ).loc main_arg5)) shapeCasts_S64_S1x64)))
    (shapeCast S1x64 (m ((c : Thread nD τ).loc main_arg6)) shapeCasts_S64_S1x64) (shapeCast S1x64 (m ((c : Thread nD τ).loc main_arg7)) shapeCasts_S64_S1x64)
    (shapeCast S1x64 (m ((c : Thread nD τ).loc main_arg8)) shapeCasts_S64_S1x64) (shapeCast S1x64 (m ((c : Thread nD τ).loc main_arg9)) shapeCasts_S64_S1x64)
    (m ((c : Thread nD τ).loc main_arg10)) (shapeCast S1x256 (m ((c : Thread nD τ).loc main_arg11)) shapeCasts_S256_S1x256) (m ((c : Thread nD τ).loc main_arg12))
    (shapeCast S1x1 (m ((c : Thread nD τ).loc main_arg13)) shapeCasts_S1_S1x1)

/-- The last boundary's contents at the result buffer are that function. -/
theorem fold_result (c : Dev nD) : W4 (F := Ideal) m ρ c (Proc.devRef .tc main_v14) = result m c :=
  (W4_arr m ρ c 9).trans ((Cert.KernelIdeal.ReadoutBlocks.final_readout (V3 m ρ) c).trans (by
    rw [entry1_v7, entry1_v8, entry1_v9, entry1_v10, entry1_v11, entry1_arg10, entry1_v12, entry1_arg12, entry1_v13]
    rfl))

end Cert.KernelIdeal.Pooled

end
-- ==== Proof.LibColumns.lean ====
/-
  Column-wise layout operations on matrices, read at an index written by coordinates.

  A block of columns cut from a matrix; a single entry `[1, 1]` repeated down a column `[a, 1]`; two matrices with the
  same rows set side by side, read in the left piece and in the right piece; and a matrix widened by padding columns on
  the right, read inside the original columns. Each holds for any element type and any extents.
-/
import Idealize.ShloMosaic.Lib.Pipeline.Value
import Idealize.ShloMosaic.Lib.ValueIdx
import Idealize.ShloMosaic.Lib.KernelVsHost

namespace Cert.LibColumns

open Idealize.ShloMosaic Idealize.ShloMosaic.ValueIdx

variable {α : Type}

/-- Columns `o … o + m − 1` cut from an `[a, n]` matrix: entry `(p, j)` of the cut is entry `(p, o + j)` of the matrix. -/
theorem slice_cols_apply {a n m : ℕ} (o : ℕ) (X : (⟨2, ![a, n]⟩ : Shape).Idx → α)
    (h : (⟨2, ![a, n]⟩ : Shape).Slices ![0, o] ⟨2, ![a, m]⟩) (p : Fin a) (j : Fin m) (hj : o + j.val < n) :
    extractStridedSlice ⟨2, ![a, m]⟩ ![0, o] X h (ix2 p j) = X (ix2 p ⟨o + j.val, hj⟩) :=
  extractStridedSlice_apply _ _ _ _ _ (fun ax => by
    match ax with
    | ⟨0, _⟩ => show p.val = 0 + p.val; omega
    | ⟨1, _⟩ => rfl)

/-- A single entry `[1, 1]` repeated down a column `[a, 1]`: every entry of the column is that entry. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => show (0 : ℕ) = if (1 : ℕ) = 1 then 0 else p.val; rw [if_pos rfl]
  | ⟨1, _⟩ => show (0 : ℕ) = if (1 : ℕ) = 1 then 0 else u.val; rw [if_pos rfl]

/-- Two matrices with the same rows set side by side, `[r, n1]` then `[r, n2]`: a column `j < n1` of the result is
    column `j` of the left piece. -/
theorem concat_cols_left {r n1 n2 n : ℕ} (A : (⟨2, ![r, n1]⟩ : Shape).Idx → α) (B : (⟨2, ![r, n2]⟩ : Shape).Idx → α)
    (h : Shape.Concatenates [(⟨2, ![r, n1]⟩ : Shape), ⟨2, ![r, n2]⟩] ⟨2, ![r, n]⟩ 1) (k : Fin r) (j : Fin n1) (hj : j.val < n) :
    concatenate ⟨2, ![r, n]⟩ 1 [⟨⟨2, ![r, n1]⟩, A⟩, ⟨⟨2, ![r, n2]⟩, B⟩] h (ix2 k ⟨j.val, hj⟩) = A (ix2 k j) :=
  concatenate_pair_apply_left 1 A B h _ rfl (ix2 k j) (fun b => by
    match b with
    | ⟨0, _⟩ => rfl
    | ⟨1, _⟩ => rfl)

/-- The same, in the right piece: column `n1 + j` of the result is column `j` of the right piece. -/
theorem concat_cols_right {r n1 n2 n : ℕ} (A : (⟨2, ![r, n1]⟩ : Shape).Idx → α) (B : (⟨2, ![r, n2]⟩ : Shape).Idx → α)
    (h : Shape.Concatenates [(⟨2, ![r, n1]⟩ : Shape), ⟨2, ![r, n2]⟩] ⟨2, ![r, n]⟩ 1) (k : Fin r) (j : Fin n2)
    (hj : n1 + j.val < n) :
    concatenate ⟨2, ![r, n]⟩ 1 [⟨⟨2, ![r, n1]⟩, A⟩, ⟨⟨2, ![r, n2]⟩, B⟩] h (ix2 k ⟨n1 + j.val, hj⟩) = B (ix2 k j) :=
  concatenate_pair_apply_right 1 A B h _ rfl rfl (ix2 k j)
    (fun b hb => by
      match b with
      | ⟨0, _⟩ => rfl
      | ⟨1, _⟩ => exact absurd rfl hb)
    (by show j.val + n1 = n1 + j.val; omega)

/-- A matrix `[r, n]` widened to `[r, N]` by padding columns on the right only: inside the first `n` columns the
    result is the matrix, whatever the padding value. -/
theorem pad_cols_apply {r n N : ℕ} (hi : ℕ) (X : (⟨2, ![r, n]⟩ : Shape).Idx → α) {u : Shape} (v : u.Idx → α)
    (hp : (⟨2, ![r, n]⟩ : Shape).Pads ![0, 0] ![0, hi] ![0, 0] ⟨2, ![r, N]⟩) (hu : 0 < u.numel)
    (k : Fin r) (j : Fin n) (hj : j.val < N) :
    pad ⟨2, ![r, N]⟩ ![0, 0] ![0, hi] ![0, 0] X v hp hu (ix2 k ⟨j.val, hj⟩) = X (ix2 k j) :=
  pad_apply_of_inside _ _ _ X v hp hu _ (ix2 k j) (fun ax => by
    match ax with
    | ⟨0, _⟩ => show k.val = 0 + k.val * (0 + 1); omega
    | ⟨1, _⟩ => show j.val = 0 + j.val * (0 + 1); omega)

end Cert.LibColumns
-- ==== Proof.RefVal.lean ====
/-
  The reference program's stages are the same mathematics.

  Its gated rows: the reference sets h and x side by side ([h | x], 128 columns) and multiplies by the whole first
  weight matrix; a sum over 128 columns is the sum over the first 64 plus the sum over the last 64, so the product is
  h · (upper half) + x · (lower half).  Its logistic is spelt 1 / (1 + exp(−·)), which is the logistic function.
  Its readout is the same chain of operations on the pooled rows as `readout`.
-/
import proofs.«155075_j16088947491016_1_alg».proof.Proof.Gen.ReferenceIdeal.Read
import proofs.«155075_j16088947491016_1_alg».proof.Proof.LibColumns
import proofs.«155075_j16088947491016_1_alg».proof.Proof.Spec
import Idealize.ShloMosaic.Lib.IdealHost

set_option maxRecDepth 16384

noncomputable section

namespace Cert.ReferenceIdeal.RefReadout

open Idealize.ShloMosaic Idealize.ShloMosaic.ValueIdx Cert.ReferenceIdeal Cert.ReferenceIdeal.Gen Cert.ReferenceIdeal.Read
open Cert.GatedReadout

/-- A sum over 128 indices is the sum over the first 64 plus the sum over the last 64. -/
theorem sum_128_halves {M : Type} [AddCommMonoid M] (f : Fin 128 → M) :
    ∑ k : Fin 128, f k = ∑ k : Fin 64, f ⟨k.val, by omega⟩ + ∑ k : Fin 64, f ⟨64 + k.val, by omega⟩ :=
  Fin.sum_univ_add (a := 64) (b := 64) (f : Fin (64 + 64) → M)

/-- The reference's gated rows are `gatedArr` of the halves of its first weight matrix and its biases as rows. -/
theorem ref_gated (x0 x1 : (⟨S2000000x64, .f32⟩ : BufTy).Contents (Elt Ideal)) (x2 : (⟨S128x64, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal))
    (wih wix : FVec Ideal ⟨2, ![64, 64]⟩ .f32) (bi bj : FVec Ideal ⟨2, ![1, 64]⟩ .f32)
    (hwih : ∀ k d : Fin 64, wih (ix2 k d) = x2 (ix2 (⟨k.val, by omega⟩ : Fin 128) d))
    (hwix : ∀ k d : Fin 64, wix (ix2 k d) = x2 (ix2 (⟨64 + k.val, by omega⟩ : Fin 128) d))
    (hbi : ∀ d : Fin 64, bi (ix2 0 d) = x3 (ix1 d)) (hbj : ∀ d : Fin 64, bj (ix2 0 d) = x5 (ix1 d)) :
    val_main_v17 (F := Ideal) x0 x1 x2 x3 x4 x5 = gatedArr x0 x1 wih wix bi x4 bj := by
  funext i
  obtain ⟨n, d, rfl⟩ : ∃ (n : Fin 2000000) (d : Fin 64), i = ix2 n d := ⟨i 0, i 1, eq_ix2 i⟩
  rw [val_main_v17_apply, val_main_v16_apply, val_main_v15_apply, val_main_cst_0_apply, val_main_v14_apply,
    val_main_v13_apply, val_main_cst_apply, val_main_v12_apply, val_main_v11_apply, val_main_v5_apply,
    val_main_v4_apply, val_main_v1_apply, val_main_v3_apply, val_main_v2_apply, val_main_v10_apply,
    val_main_v9_apply, val_main_v6_apply, val_main_v8_apply, val_main_v7_apply, val_main_call0_v0_apply,
    val_main_call0_cst_apply]
  rw [sum_128_halves]
  have eL : ∀ k : Fin 64, val_main_v0 (F := Ideal) x0 x1 (lidx_main_v1 (ix2 n d) ⟨k.val, by omega⟩) = x1 (ix2 n k) := fun k => by
    have e : lidx_main_v1 (ix2 n d) ⟨k.val, by omega⟩ = ix2 n (⟨k.val, by omega⟩ : Fin 128) :=
      funext fun a => Fin.ext (by match a with | ⟨0, _⟩ => rfl | ⟨1, _⟩ => rfl)
    rw [e]
    exact Cert.LibColumns.concat_cols_left x1 x0 concatenates_S2000000x64_S2000000x64_S2000000x128_d1 n k (by omega)
  have eR : ∀ k : Fin 64, val_main_v0 (F := Ideal) x0 x1 (lidx_main_v1 (ix2 n d) ⟨64 + k.val, by omega⟩) = x0 (ix2 n k) := fun k => by
    have e : lidx_main_v1 (ix2 n d) ⟨64 + k.val, by omega⟩ = ix2 n (⟨64 + k.val, by omega⟩ : Fin 128) :=
      funext fun a => Fin.ext (by match a with | ⟨0, _⟩ => rfl | ⟨1, _⟩ => rfl)
    rw [e]
    exact Cert.LibColumns.concat_cols_right x1 x0 concatenates_S2000000x64_S2000000x64_S2000000x128_d1 n k (by omega)
  have rL : ∀ k : Fin 64, x2 (ridx_main_v1 (ix2 n d) ⟨k.val, by omega⟩) = wih (ix2 k d) := fun k => by
    rw [hwih]
    exact congrArg x2 (funext fun a => Fin.ext (by match a with | ⟨0, _⟩ => rfl | ⟨1, _⟩ => rfl))
  have rR : ∀ k : Fin 64, x2 (ridx_main_v1 (ix2 n d) ⟨64 + k.val, by omega⟩) = wix (ix2 k d) := fun k => by
    rw [hwix]
    exact congrArg x2 (funext fun a => Fin.ext (by match a with | ⟨0, _⟩ => rfl | ⟨1, _⟩ => rfl))
  have eb : x3 (idx_main_v2 (idx_main_v3 (ix2 n d))) = bi (ix2 0 d) := by
    rw [hbi]
    exact congrArg x3 (funext fun a => Fin.ext (by match a with | ⟨0, _⟩ => rfl))
  have eb' : x5 (idx_main_v7 (idx_main_v8 (ix2 n d))) = bj (ix2 0 d) := by
    rw [hbj]
    exact congrArg x5 (funext fun a => Fin.ext (by match a with | ⟨0, _⟩ => rfl))
  have jL : ∀ k : Fin 64, x1 (lidx_main_v6 (ix2 n d) k) = x1 (ix2 n k) := fun k =>
    congrArg x1 (funext fun a => Fin.ext (by match a with | ⟨0, _⟩ => rfl | ⟨1, _⟩ => rfl))
  have jR : ∀ k : Fin 64, x4 (ridx_main_v6 (ix2 n d) k) = x4 (ix2 k d) := fun k =>
    congrArg x4 (funext fun a => Fin.ext (by match a with | ⟨0, _⟩ => rfl | ⟨1, _⟩ => rfl))
  simp only [eL, eR, rL, rR, eb, eb', jL, jR, Ideal.ofBits_def, Ideal.ofBits_one_f32]
  unfold gatedArr gate Ideal.logistic
  rfl

/-- Entry (g₀, d) of the reference's normalized pooled rows. -/
theorem ref_norm (x0 x1 : (⟨S2000000x64, .f32⟩ : BufTy).Contents (Elt Ideal)) (x2 : (⟨S128x64, .f32⟩ : BufTy).Contents (Elt Ideal))
    (x3 : (⟨S64, .f32⟩ : BufTy).Contents (Elt Ideal)) (x4 : (⟨S64x64, .f32⟩ : BufTy).Contents (Elt Ideal)) (x5 x6 x7 x8 x9 : (⟨S64, .f32⟩ : BufTy).Contents (Elt Ideal))
    (x10 : (⟨S64x256, .f32⟩ : BufTy).Contents (Elt Ideal)) (x11 : (⟨S256, .f32⟩ : BufTy).Contents (Elt Ideal)) (x12 : (⟨S256x1, .f32⟩ : BufTy).Contents (Elt Ideal)) (x13 : (⟨S1, .f32⟩ : BufTy).Contents (Elt Ideal))
    (x14 : (⟨S2000000, .i32⟩ : BufTy).Contents (Elt Ideal))
    (g b mu va : FVec Ideal ⟨2, ![1, 64]⟩ .f32)
    (hg : ∀ d : Fin 64, g (ix2 0 d) = x6 (ix1 d)) (hb : ∀ d : Fin 64, b (ix2 0 d) = x7 (ix1 d))
    (hmu : ∀ d : Fin 64, mu (ix2 0 d) = x8 (ix1 d)) (hva : ∀ d : Fin 64, va (ix2 0 d) = x9 (ix1 d)) (g0 : Fin 4096) (d : Fin 64) :
    val_main_v35 (F := Ideal) x0 x1 x2 x3 x4 x5 x6 x7 x8 x9 x14 (ix2 g0 d)
      = norm (fun d => val_main_v20 (F := Ideal) x0 x1 x2 x3 x4 x5 x14 (ix2 g0 d)) (fun d => g (ix2 0 d)) (fun d => b (ix2 0 d))
          (fun d => mu (ix2 0 d)) (fun d => va (ix2 0 d)) d := by
  rw [val_main_v35_apply, val_main_v32_apply, val_main_v29_apply, val_main_v23_apply, val_main_v22_apply,
    val_main_v21_apply, val_main_v28_apply, val_main_v27_apply, val_main_v26_apply, val_main_v25_apply,
    val_main_v24_apply, val_main_cst_2_apply, val_main_v31_apply, val_main_v30_apply, val_main_v34_apply,
    val_main_v33_apply]
  have e8 : x8 (idx_main_v21 (idx_main_v22 (ix2 g0 d))) = mu (ix2 0 d) := by
    rw [hmu]; exact congrArg x8 (funext fun a => Fin.ext (by match a with | ⟨0, _⟩ => rfl))
  have e9 : x9 (idx_main_v27 (idx_main_v28 (ix2 g0 d))) = va (ix2 0 d) := by
    rw [hva]; exact congrArg x9 (funext fun a => Fin.ext (by match a with | ⟨0, _⟩ => rfl))
  have e6 : x6 (idx_main_v30 (idx_main_v31 (ix2 g0 d))) = g (ix2 0 d) := by
    rw [hg]; exact congrArg x6 (funext fun a => Fin.ext (by match a with | ⟨0, _⟩ => rfl))
  have e7 : x7 (idx_main_v33 (idx_main_v34 (ix2 g0 d))) = b (ix2 0 d) := by
    rw [hb]; exact congrArg x7 (funext fun a => Fin.ext (by match a with | ⟨0, _⟩ => rfl))
  simp only [e8, e9, e6, e7, Ideal.ofBits_def]
  unfold Cert.GatedReadout.norm
  rfl

/-- Entry (g₀, j) of the reference's rectified hidden layer. -/
theorem ref_hidden (x0 x1 : (⟨S2000000x64, .f32⟩ : BufTy).Contents (Elt Ideal)) (x2 : (⟨S128x64, .f32⟩ : BufTy).Contents (Elt Ideal))
    (x3 : (⟨S64, .f32⟩ : BufTy).Contents (Elt Ideal)) (x4 : (⟨S64x64, .f32⟩ : BufTy).Contents (Elt Ideal)) (x5 x6 x7 x8 x9 : (⟨S64, .f32⟩ : BufTy).Contents (Elt Ideal))
    (x10 : (⟨S64x256, .f32⟩ : BufTy).Contents (Elt Ideal)) (x11 : (⟨S256, .f32⟩ : BufTy).Contents (Elt Ideal)) (x12 : (⟨S256x1, .f32⟩ : BufTy).Contents (Elt Ideal)) (x13 : (⟨S1, .f32⟩ : BufTy).Contents (Elt Ideal))
    (x14 : (⟨S2000000, .i32⟩ : BufTy).Contents (Elt Ideal))
    (g b mu va : FVec Ideal ⟨2, ![1, 64]⟩ .f32)
    (hg : ∀ d : Fin 64, g (ix2 0 d) = x6 (ix1 d)) (hb : ∀ d : Fin 64, b (ix2 0 d) = x7 (ix1 d))
    (hmu : ∀ d : Fin 64, mu (ix2 0 d) = x8 (ix1 d)) (hva : ∀ d : Fin 64, va (ix2 0 d) = x9 (ix1 d)) (b1 : FVec Ideal ⟨2, ![1, 256]⟩ .f32) (hb1 : ∀ j : Fin 256, b1 (ix2 0 j) = x11 (ix1 j))
    (g0 : Fin 4096) (j : Fin 256) :
    val_main_v40 (F := Ideal) x0 x1 x2 x3 x4 x5 x6 x7 x8 x9 x10 x11 x14 (ix2 g0 j)
      = max (∑ d : Fin 64, norm (fun d => val_main_v20 (F := Ideal) x0 x1 x2 x3 x4 x5 x14 (ix2 g0 d)) (fun d => g (ix2 0 d)) (fun d => b (ix2 0 d))
          (fun d => mu (ix2 0 d)) (fun d => va (ix2 0 d)) d * x10 (ix2 d j) + b1 (ix2 0 j)) (Ideal.ofBits .f32 0x00000000#32) := by
  rw [val_main_v40_apply, val_main_v39_apply, val_main_v36_apply, val_main_v38_apply, val_main_v37_apply,
    val_main_call1_v0_apply, val_main_call1_cst_apply]
  have eN : ∀ d : Fin 64, val_main_v35 (F := Ideal) x0 x1 x2 x3 x4 x5 x6 x7 x8 x9 x14 (lidx_main_v36 (ix2 g0 j) d)
      = norm (fun d => val_main_v20 (F := Ideal) x0 x1 x2 x3 x4 x5 x14 (ix2 g0 d)) (fun d => g (ix2 0 d)) (fun d => b (ix2 0 d))
          (fun d => mu (ix2 0 d)) (fun d => va (ix2 0 d)) d := fun d => by
    rw [show lidx_main_v36 (ix2 g0 j) d = ix2 g0 d from funext fun a => Fin.ext (by match a with | ⟨0, _⟩ => rfl | ⟨1, _⟩ => rfl)]
    exact ref_norm x0 x1 x2 x3 x4 x5 x6 x7 x8 x9 x10 x11 x12 x13 x14 g b mu va hg hb hmu hva g0 d
  have eW : ∀ d : Fin 64, x10 (ridx_main_v36 (ix2 g0 j) d) = x10 (ix2 d j) := fun d =>
    congrArg x10 (funext fun a => Fin.ext (by match a with | ⟨0, _⟩ => rfl | ⟨1, _⟩ => rfl))
  have eB : x11 (idx_main_v37 (idx_main_v38 (ix2 g0 j))) = b1 (ix2 0 j) := by
    rw [hb1]; exact congrArg x11 (funext fun a => Fin.ext (by match a with | ⟨0, _⟩ => rfl))
  simp only [eN, eW, eB, Ideal.ofBits_def]
  rfl

/-- The reference's result is `readoutArr` of its pooled rows and its vectors as rows. -/
theorem ref_readout (x0 x1 : (⟨S2000000x64, .f32⟩ : BufTy).Contents (Elt Ideal)) (x2 : (⟨S128x64, .f32⟩ : BufTy).Contents (Elt Ideal))
    (x3 : (⟨S64, .f32⟩ : BufTy).Contents (Elt Ideal)) (x4 : (⟨S64x64, .f32⟩ : BufTy).Contents (Elt Ideal)) (x5 x6 x7 x8 x9 : (⟨S64, .f32⟩ : BufTy).Contents (Elt Ideal))
    (x10 : (⟨S64x256, .f32⟩ : BufTy).Contents (Elt Ideal)) (x11 : (⟨S256, .f32⟩ : BufTy).Contents (Elt Ideal)) (x12 : (⟨S256x1, .f32⟩ : BufTy).Contents (Elt Ideal)) (x13 : (⟨S1, .f32⟩ : BufTy).Contents (Elt Ideal))
    (x14 : (⟨S2000000, .i32⟩ : BufTy).Contents (Elt Ideal))
    (g b mu va : FVec Ideal ⟨2, ![1, 64]⟩ .f32)
    (hg : ∀ d : Fin 64, g (ix2 0 d) = x6 (ix1 d)) (hb : ∀ d : Fin 64, b (ix2 0 d) = x7 (ix1 d))
    (hmu : ∀ d : Fin 64, mu (ix2 0 d) = x8 (ix1 d)) (hva : ∀ d : Fin 64, va (ix2 0 d) = x9 (ix1 d)) (b1 : FVec Ideal ⟨2, ![1, 256]⟩ .f32) (hb1 : ∀ j : Fin 256, b1 (ix2 0 j) = x11 (ix1 j))
    (bo : FVec Ideal ⟨2, ![1, 1]⟩ .f32) (hbo : ∀ q : Fin 1, bo (ix2 0 q) = x13 (ix1 q)) :
    val_main_v44 (F := Ideal) x0 x1 x2 x3 x4 x5 x6 x7 x8 x9 x10 x11 x12 x13 x14
      = readoutArr (val_main_v20 (F := Ideal) x0 x1 x2 x3 x4 x5 x14) g b mu va x10 b1 x12 bo := by
  funext i
  obtain ⟨g0, q, rfl⟩ : ∃ (g0 : Fin 4096) (q : Fin 1), i = ix2 g0 q := ⟨i 0, i 1, eq_ix2 i⟩
  rw [val_main_v44_apply, val_main_v41_apply, val_main_v43_apply, val_main_v42_apply]
  have eH : ∀ j : Fin 256, val_main_v40 (F := Ideal) x0 x1 x2 x3 x4 x5 x6 x7 x8 x9 x10 x11 x14 (lidx_main_v41 (ix2 g0 q) j)
      = max (∑ d : Fin 64, norm (fun d => val_main_v20 (F := Ideal) x0 x1 x2 x3 x4 x5 x14 (ix2 g0 d)) (fun d => g (ix2 0 d)) (fun d => b (ix2 0 d))
          (fun d => mu (ix2 0 d)) (fun d => va (ix2 0 d)) d * x10 (ix2 d j) + b1 (ix2 0 j)) (Ideal.ofBits .f32 0x00000000#32) := fun j => by
    rw [show lidx_main_v41 (ix2 g0 q) j = ix2 g0 j from funext fun a => Fin.ext (by match a with | ⟨0, _⟩ => rfl | ⟨1, _⟩ => rfl)]
    exact ref_hidden x0 x1 x2 x3 x4 x5 x6 x7 x8 x9 x10 x11 x12 x13 x14 g b mu va hg hb hmu hva b1 hb1 g0 j
  have eW : ∀ j : Fin 256, x12 (ridx_main_v41 (ix2 g0 q) j) = x12 (ix2 j q) := fun j =>
    congrArg x12 (funext fun a => Fin.ext (by match a with | ⟨0, _⟩ => rfl | ⟨1, _⟩ => rfl))
  have eB : x13 (idx_main_v42 (idx_main_v43 (ix2 g0 q))) = bo (ix2 0 q) := by
    rw [hbo]
    exact congrArg x13 (funext fun a => Fin.ext (by
      match a with
      | ⟨0, h0⟩ =>
        have h1 : (idx_main_v42 (idx_main_v43 (ix2 g0 q)) ⟨0, h0⟩).val < 1 :=
          (idx_main_v42 (idx_main_v43 (ix2 g0 q)) ⟨0, h0⟩).isLt
        have h2 : (ix1 q ⟨0, h0⟩).val < 1 := (ix1 q ⟨0, h0⟩).isLt
        omega))
  simp only [eH, eW, eB]
  unfold readoutArr readout
  rfl

end Cert.ReferenceIdeal.RefReadout

end
-- ==== Proof.Bridge.lean ====
/-
  The two programs compute one function.

  The kernel's program hands its first region the upper and lower halves of the first weight matrix, and both regions
  their vectors laid as rows; the reference uses the whole matrix on [h | x] and broadcasts the vectors.  Entry by
  entry these are the same numbers, so the gated rows agree; both programs then pool them with the same per-graph sum,
  and read the pooled rows out by the same chain of operations.
-/
import proofs.«155075_j16088947491016_1_alg».proof.Proof.Fold
import proofs.«155075_j16088947491016_1_alg».proof.Proof.RefVal
import Idealize.ShloMosaic.Lib.ValueLayout

set_option maxRecDepth 16384

noncomputable section

namespace Cert.Bridge

open Idealize.ShloMosaic Idealize.ShloMosaic.ValueIdx Cert.GatedReadout

/-- The reference's result is the readout of the pooled gated rows, with the operands as the kernel's program lays
    them out. -/
theorem reference_eq (x0 x1 : (⟨Cert.ReferenceIdeal.S2000000x64, .f32⟩ : BufTy).Contents (Elt Ideal)) (x2 : (⟨Cert.ReferenceIdeal.S128x64, .f32⟩ : BufTy).Contents (Elt Ideal))
    (x3 : (⟨Cert.ReferenceIdeal.S64, .f32⟩ : BufTy).Contents (Elt Ideal)) (x4 : (⟨Cert.ReferenceIdeal.S64x64, .f32⟩ : BufTy).Contents (Elt Ideal)) (x5 x6 x7 x8 x9 : (⟨Cert.ReferenceIdeal.S64, .f32⟩ : BufTy).Contents (Elt Ideal))
    (x10 : (⟨Cert.ReferenceIdeal.S64x256, .f32⟩ : BufTy).Contents (Elt Ideal)) (x11 : (⟨Cert.ReferenceIdeal.S256, .f32⟩ : BufTy).Contents (Elt Ideal)) (x12 : (⟨Cert.ReferenceIdeal.S256x1, .f32⟩ : BufTy).Contents (Elt Ideal)) (x13 : (⟨Cert.ReferenceIdeal.S1, .f32⟩ : BufTy).Contents (Elt Ideal))
    (x14 : (⟨Cert.ReferenceIdeal.S2000000, .i32⟩ : BufTy).Contents (Elt Ideal)) :
    Cert.ReferenceIdeal.Read.val_main_v44 (F := Ideal) x0 x1 x2 x3 x4 x5 x6 x7 x8 x9 x10 x11 x12 x13 x14
      = readoutArr (Host.scatterAdd Cert.KernelIdeal.scatter_S4096x64_S2000000x1_S2000000x64_1_0_0_1
        (broadcastInDim Cert.KernelIdeal.S4096x64 ![] Cert.KernelIdeal.Facts₀.bcast_S_S4096x64 (constant (F := Ideal) Cert.KernelIdeal.S_ .f32 0x00000000#32))
        (broadcastInDim Cert.KernelIdeal.S2000000x1 ![0] Cert.KernelIdeal.Facts₀.bcast_S2000000_S2000000x1_0 x14)
        (gatedArr x0 x1
        (extractStridedSlice Cert.KernelIdeal.S64x64 ![0, 0] x2 Cert.KernelIdeal.Facts₀.slices_S128x64_S64x64_0_0)
        (extractStridedSlice Cert.KernelIdeal.S64x64 ![64, 0] x2 Cert.KernelIdeal.Facts₀.slices_S128x64_S64x64_64_0)
        (shapeCast Cert.KernelIdeal.S1x64 x3 Cert.KernelIdeal.Facts₀.shapeCasts_S64_S1x64) x4 (shapeCast Cert.KernelIdeal.S1x64 x5 Cert.KernelIdeal.Facts₀.shapeCasts_S64_S1x64)))
          (shapeCast Cert.KernelIdeal.S1x64 x6 Cert.KernelIdeal.Facts₀.shapeCasts_S64_S1x64) (shapeCast Cert.KernelIdeal.S1x64 x7 Cert.KernelIdeal.Facts₀.shapeCasts_S64_S1x64) (shapeCast Cert.KernelIdeal.S1x64 x8 Cert.KernelIdeal.Facts₀.shapeCasts_S64_S1x64) (shapeCast Cert.KernelIdeal.S1x64 x9 Cert.KernelIdeal.Facts₀.shapeCasts_S64_S1x64) x10
          (shapeCast Cert.KernelIdeal.S1x256 x11 Cert.KernelIdeal.Facts₀.shapeCasts_S256_S1x256) x12
          (shapeCast Cert.KernelIdeal.S1x1 x13 Cert.KernelIdeal.Facts₀.shapeCasts_S1_S1x1) := by
  have hG := Cert.ReferenceIdeal.RefReadout.ref_gated x0 x1 x2 x3 x4 x5
    (extractStridedSlice Cert.KernelIdeal.S64x64 ![0, 0] x2 Cert.KernelIdeal.Facts₀.slices_S128x64_S64x64_0_0)
    (extractStridedSlice Cert.KernelIdeal.S64x64 ![64, 0] x2 Cert.KernelIdeal.Facts₀.slices_S128x64_S64x64_64_0)
    (shapeCast Cert.KernelIdeal.S1x64 x3 Cert.KernelIdeal.Facts₀.shapeCasts_S64_S1x64) (shapeCast Cert.KernelIdeal.S1x64 x5 Cert.KernelIdeal.Facts₀.shapeCasts_S64_S1x64)
    (fun k d => extractStridedSlice_apply _ x2 _ (ix2 k d) (ix2 (⟨k.val, by omega⟩ : Fin 128) d) (fun a => by
      match a with
      | ⟨0, _⟩ => exact (Nat.zero_add _).symm
      | ⟨1, _⟩ => exact (Nat.zero_add _).symm))
    (fun k d => extractStridedSlice_apply _ x2 _ (ix2 k d) (ix2 (⟨64 + k.val, by omega⟩ : Fin 128) d) (fun a => by
      match a with
      | ⟨0, _⟩ => rfl
      | ⟨1, _⟩ => exact (Nat.zero_add _).symm))
    (fun d => shapeCast_a_1a_apply x3 _ 0 d) (fun d => shapeCast_a_1a_apply x5 _ 0 d)
  have hP : Cert.ReferenceIdeal.Read.val_main_v20 (F := Ideal) x0 x1 x2 x3 x4 x5 x14 = (Host.scatterAdd Cert.KernelIdeal.scatter_S4096x64_S2000000x1_S2000000x64_1_0_0_1
        (broadcastInDim Cert.KernelIdeal.S4096x64 ![] Cert.KernelIdeal.Facts₀.bcast_S_S4096x64 (constant (F := Ideal) Cert.KernelIdeal.S_ .f32 0x00000000#32))
        (broadcastInDim Cert.KernelIdeal.S2000000x1 ![0] Cert.KernelIdeal.Facts₀.bcast_S2000000_S2000000x1_0 x14)
        (gatedArr x0 x1
        (extractStridedSlice Cert.KernelIdeal.S64x64 ![0, 0] x2 Cert.KernelIdeal.Facts₀.slices_S128x64_S64x64_0_0)
        (extractStridedSlice Cert.KernelIdeal.S64x64 ![64, 0] x2 Cert.KernelIdeal.Facts₀.slices_S128x64_S64x64_64_0)
        (shapeCast Cert.KernelIdeal.S1x64 x3 Cert.KernelIdeal.Facts₀.shapeCasts_S64_S1x64) x4 (shapeCast Cert.KernelIdeal.S1x64 x5 Cert.KernelIdeal.Facts₀.shapeCasts_S64_S1x64))) := by
    unfold Cert.ReferenceIdeal.Read.val_main_v20
    rw [hG]
    rfl
  rw [Cert.ReferenceIdeal.RefReadout.ref_readout x0 x1 x2 x3 x4 x5 x6 x7 x8 x9 x10 x11 x12 x13 x14
    (shapeCast Cert.KernelIdeal.S1x64 x6 Cert.KernelIdeal.Facts₀.shapeCasts_S64_S1x64) (shapeCast Cert.KernelIdeal.S1x64 x7 Cert.KernelIdeal.Facts₀.shapeCasts_S64_S1x64) (shapeCast Cert.KernelIdeal.S1x64 x8 Cert.KernelIdeal.Facts₀.shapeCasts_S64_S1x64) (shapeCast Cert.KernelIdeal.S1x64 x9 Cert.KernelIdeal.Facts₀.shapeCasts_S64_S1x64)
    (fun d => shapeCast_a_1a_apply x6 _ 0 d) (fun d => shapeCast_a_1a_apply x7 _ 0 d)
    (fun d => shapeCast_a_1a_apply x8 _ 0 d) (fun d => shapeCast_a_1a_apply x9 _ 0 d)
    (shapeCast Cert.KernelIdeal.S1x256 x11 Cert.KernelIdeal.Facts₀.shapeCasts_S256_S1x256) (fun j => shapeCast_a_1a_apply x11 _ 0 j)
    (shapeCast Cert.KernelIdeal.S1x1 x13 Cert.KernelIdeal.Facts₀.shapeCasts_S1_S1x1) (fun q => shapeCast_a_1a_apply x13 _ 0 q), hP]

end Cert.Bridge

end
-- ==== Proof.lean ====
/-
  The certificate of the gated readout layer: a Pallas program of two regions — the gated dense rows of all nodes,
  then, after the host's per-graph sum, the normalization and the two dense layers of every graph — against the jnp
  reference.

  Frames: the two programs with kernels by their generated frames, the reference by its generated run.  The
  idealization rewrote nothing, so `preserves` is trivial.  The algebraic claim: read at the extended reals both
  programs end with one function of the arguments — `Cert.KernelIdeal.Pooled.result`: the readout
  (`Cert.GatedReadout.readout`) of the per-graph sums of the gated rows (`Cert.GatedReadout.gate`).  The kernel's
  side is the run of its four segments with the result read at the last boundary (`Pooled.run_fold`,
  `Pooled.fold_result`); the reference's side is its run with the composed term read one operation at a time
  (`RefReadout.ref_gated`, `RefReadout.ref_readout`), the only law used being that a sum over 128 indices is the sum of
  its two halves.
-/
import proofs.«155075_j16088947491016_1_alg».proof.Defs
import proofs.«155075_j16088947491016_1_alg».proof.Proof.Gen.Kernel
import proofs.«155075_j16088947491016_1_alg».proof.Proof.Gen.Kernel.Skeleton
import proofs.«155075_j16088947491016_1_alg».proof.Proof.Gen.Kernel.Launch
import proofs.«155075_j16088947491016_1_alg».proof.Proof.Gen.Kernel.Points
import proofs.«155075_j16088947491016_1_alg».proof.Proof.Gen.Kernel.Frame
import proofs.«155075_j16088947491016_1_alg».proof.Proof.Gen.KernelIdeal
import proofs.«155075_j16088947491016_1_alg».proof.Proof.Gen.KernelIdeal.Skeleton
import proofs.«155075_j16088947491016_1_alg».proof.Proof.Gen.KernelIdeal.Launch
import proofs.«155075_j16088947491016_1_alg».proof.Proof.Gen.KernelIdeal.Points
import proofs.«155075_j16088947491016_1_alg».proof.Proof.Gen.KernelIdeal.Frame
import proofs.«155075_j16088947491016_1_alg».proof.Proof.Gen.ReferenceIdeal
import proofs.«155075_j16088947491016_1_alg».proof.Proof.Gen.Pre_finite_inputs
import proofs.«155075_j16088947491016_1_alg».proof.Proof.Gen.ReferenceIdeal.Run
import proofs.«155075_j16088947491016_1_alg».proof.Proof.Gen.ReferenceIdeal.Read
import proofs.«155075_j16088947491016_1_alg».proof.Proof.Bridge
import Idealize.ShloMosaic.Adequacy
import Idealize.ShloMosaic.Init

set_option maxRecDepth 16384

noncomputable section

namespace Cert.Proof

open Idealize.ShloMosaic Idealize.SL.Sem

namespace GatedReadoutClaims

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at `Pooled.result` of arguments that agree. -/
theorem algebraic : Cert.algebraic_KernelIdeal_ReferenceIdeal := by
  intro m ρ m' ρ' _ hagree
  refine ⟨fun c => Cert.KernelIdeal.Pooled.result m c, ?_, ?_⟩
  · exact (θ_run Cert.KernelIdeal.defs _ _).mono
      (fun r h c => ⟨(h c).1.trans (Cert.KernelIdeal.Pooled.fold_result m ρ c), (h c).2⟩)
      (Cert.KernelIdeal.Pooled.run_fold (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v44_eq]
    obtain ⟨a0, a1, a2, a3, a4, a5, a6, a7, a8, a9, a10, a11, a12, a13, a14⟩ := hagree c
    rw [a0, a1, a2, a3, a4, a5, a6, a7, a8, a9, a10, a11, a12, a13, a14]
    exact Cert.Bridge.reference_eq (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))

end GatedReadoutClaims

theorem claim : Cert.Claim := ⟨Cert.Kernel.Gen.facts, Cert.KernelIdeal.Gen.facts, Cert.ReferenceIdeal.Gen.facts, Cert.Pre_finite_inputs.Gen.facts,
  GatedReadoutClaims.frame_p, GatedReadoutClaims.frame_pi, GatedReadoutClaims.frame_ri, GatedReadoutClaims.preserves,
  GatedReadoutClaims.algebraic⟩

end Cert.Proof

end
